-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S256 .f32) (main_arg6 : FVec F S256x2 .f32) (main_arg7 : FVec F S2 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x2 .f32 := Host.absf main_arg6
  let main_cst_8 : FVec F S_ .f32 := constant S_ .f32 0x7F800000#32
  let main_v25 : FVec F S256x2 .f32 := broadcastInDim S256x2 ![] bcast_S_S256x2 main_cst_8
  let main_v26 : IVec S256x2 1 := cmpf .olt main_v24 main_v25
  let main_c_9 : IVec S_ 1 := constantI S_ 1 1#1
  let main_v27 : IVec S_ 1 := (fun x v => Host.reduce IntOp.andi x v reducesTo_S256x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256 .f32) (main_arg6 : FVec F S256x2 .f32) (main_arg7 : FVec F S2 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x2 : Shape := ⟨2, ![256, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1000x256 : Shape := ⟨2, ![1000, 256]⟩
abbrev S850000x256 : Shape := ⟨2, ![850000, 256]⟩
abbrev S1x256 : Shape := ⟨2, ![1, 256]⟩
abbrev S1x2 : Shape := ⟨2, ![1, 2]⟩
abbrev S50000x2 : Shape := ⟨2, ![50000, 2]⟩
abbrev S1000x2 : Shape := ⟨2, ![1000, 2]⟩
abbrev S1000 : Shape := ⟨1, ![1000]⟩
abbrev S1000x1 : Shape := ⟨2, ![1000, 1]⟩

abbrev nBuf : Space → Nat
  | .hbm => 90
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x2, .f32⟩
  | .hbm, ⟨7, _⟩ => ⟨S2, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x256, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x256, .f32⟩
  | .hbm, ⟨58, _⟩ => ⟨S850000x1, .f32⟩
  | .hbm, ⟨59, _⟩ => ⟨S850000x256, .f32⟩
  | .hbm, ⟨60, _⟩ => ⟨S850000x256, .f32⟩
  | .hbm, ⟨61, _⟩ => ⟨S_, .f32⟩
  | .hbm, ⟨62, _⟩ => ⟨S50000x256, .f32⟩
  | .hbm, ⟨63, _⟩ => ⟨S850000x1, .i32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S50000x256, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x256, .f32⟩
  | .hbm, ⟨78, _⟩ => ⟨S850000x1, .f32⟩
  | .hbm, ⟨79, _⟩ => ⟨S850000x256, .f32⟩
  | .hbm, ⟨80, _⟩ => ⟨S850000x256, .f32⟩
  | .hbm, ⟨81, _⟩ => ⟨S_, .f32⟩
  | .hbm, ⟨82, _⟩ => ⟨S50000x256, .f32⟩
  | .hbm, ⟨83, _⟩ => ⟨S850000x1, .i32⟩
  | .hbm, ⟨84, _⟩ => ⟨S50000x256, .f32⟩
  | .hbm, ⟨85, _⟩ => ⟨S1x256, .f32⟩
  | .hbm, ⟨86, _⟩ => ⟨S50000x256, .f32⟩
  | .hbm, ⟨87, _⟩ => ⟨S50000x256, .f32⟩
  | .hbm, ⟨88, _⟩ => ⟨S1x2, .f32⟩
  | .hbm, ⟨89, _⟩ => ⟨S50000x2, .f32⟩
  | .local _ .vmem, ⟨0, _⟩ => ⟨S1000x256, .f32⟩
  | .local _ .vmem, ⟨1, _⟩ => ⟨S1000x256, .f32⟩
  | .local _ .vmem, ⟨2, _⟩ => ⟨S256x256, .f32⟩
  | .local _ .vmem, ⟨3, _⟩ => ⟨S1000x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S256x256, .f32⟩
  | .local _ .vmem, ⟨8, _⟩ => ⟨S1000x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S256x2, .f32⟩
  | .local _ .vmem, ⟨13, _⟩ => ⟨S1x2, .f32⟩
  | .local _ .vmem, ⟨14, _⟩ => ⟨S1000x2, .f32⟩
  | .local _ .vmem, ⟨15, _⟩ => ⟨S1000x2, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S1000x256_S1000x256_0_0 : ∀ a, (![0, 0] : Fin 2 → Nat) a + S1000x256.size a ≤ S1000x256.size a
  h_S1000x256 : 0 < S1000x256.numel
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S1000x256_S1000x256 : S1000x256.ShapeCasts S1000x256
  shapeCasts_S2_S1x2 : S2.ShapeCasts S1x2
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1000x2 : S1x2.Broadcasts S1000x2
  reduces_S1000x2_S1000 : S1000x2.Reduces [1] S1000
  shapeCasts_S1000_S1000x1 : S1000.ShapeCasts S1000x1
  broadcasts_S1000x1_S1000x2 : S1000x1.Broadcasts S1000x2
  inb_S1000x2_S1000x2_0_0 : ∀ a, (![0, 0] : Fin 2 → Nat) a + S1000x2.size a ≤ S1000x2.size a
  h_S1000x2 : 0 < S1000x2.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S1000x256_S256x256_S1000x256_1_0_0_1_n_n_wf : DotDims.WF S1000x256 S256x256 S1000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S1000x256_S256x2_S1000x2_1_0_0_1_n_n_wf : DotDims.WF S1000x256 S256x2 S1000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S50000x256.size a
  hwx0_2 : ∀ i : grid0.Coords, EltTy.bits .f32 = 32 ∨ (Rect.block (s := S50000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S50000x256.size a
  hwx1_2 : ∀ i : grid1.Coords, EltTy.bits .f32 = 32 ∨ (Rect.block (s := S50000x256) S1000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x2.size a ≤ S256x2.size a
  hwx2_1 : ∀ i : grid2.Coords, EltTy.bits .f32 = 32 ∨ (Rect.block (s := S256x2) S256x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x2.size a ≤ S50000x2.size a
  hwx2_3 : ∀ i : grid2.Coords, EltTy.bits .f32 = 32 ∨ (Rect.block (s := S50000x2) S1000x2.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S1000x256_S256x2_S1000x2_1_0_0_1_n_n : DotDims S1000x256 S256x2 S1000x2 where
  lhsContracting := [1]
  rhsContracting := [0]
  lhsNonContracting := [0]
  rhsNonContracting := [1]
  lhsBatch := []
  rhsBatch := []
  wf := dot_S1000x256_S256x2_S1000x2_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x2 : Shape := ⟨2, ![256, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x2 : Shape := ⟨2, ![50000, 2]⟩
abbrev S1x2 : Shape := ⟨2, ![1, 2]⟩
abbrev S50000x1 : Shape := ⟨2, ![50000, 1]⟩

abbrev nBuf : Space → Nat
  | .hbm => 113
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x2, .f32⟩
  | .hbm, ⟨7, _⟩ => ⟨S2, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x256, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x256, .f32⟩
  | .hbm, ⟨58, _⟩ => ⟨S850000x1, .f32⟩
  | .hbm, ⟨59, _⟩ => ⟨S850000x256, .f32⟩
  | .hbm, ⟨60, _⟩ => ⟨S850000x256, .f32⟩
  | .hbm, ⟨61, _⟩ => ⟨S_, .f32⟩
  | .hbm, ⟨62, _⟩ => ⟨S50000x256, .f32⟩
  | .hbm, ⟨63, _⟩ => ⟨S850000x1, .i32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S50000x256, .f32⟩
  | .hbm, ⟨70, _⟩ => ⟨S50000x256, .f32⟩
  | .hbm, ⟨71, _⟩ => ⟨S50000x256, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x256, .f32⟩
  | .hbm, ⟨81, _⟩ => ⟨S850000x1, .f32⟩
  | .hbm, ⟨82, _⟩ => ⟨S850000x256, .f32⟩
  | .hbm, ⟨83, _⟩ => ⟨S850000x256, .f32⟩
  | .hbm, ⟨84, _⟩ => ⟨S_, .f32⟩
  | .hbm, ⟨85, _⟩ => ⟨S50000x256, .f32⟩
  | .hbm, ⟨86, _⟩ => ⟨S850000x1, .i32⟩
  | .hbm, ⟨87, _⟩ => ⟨S50000x256, .f32⟩
  | .hbm, ⟨88, _⟩ => ⟨S1x256, .f32⟩
  | .hbm, ⟨89, _⟩ => ⟨S50000x256, .f32⟩
  | .hbm, ⟨90, _⟩ => ⟨S50000x256, .f32⟩
  | .hbm, ⟨91, _⟩ => ⟨S_, .f32⟩
  | .hbm, ⟨92, _⟩ => ⟨S50000x256, .f32⟩
  | .hbm, ⟨93, _⟩ => ⟨S50000x256, .f32⟩
  | .hbm, ⟨94, _⟩ => ⟨S50000x2, .f32⟩
  | .hbm, ⟨95, _⟩ => ⟨S1x2, .f32⟩
  | .hbm, ⟨96, _⟩ => ⟨S50000x2, .f32⟩
  | .hbm, ⟨97, _⟩ => ⟨S50000x2, .f32⟩
  | .hbm, ⟨98, _⟩ => ⟨S_, .f32⟩
  | .hbm, ⟨99, _⟩ => ⟨S50000, .f32⟩
  | .hbm, ⟨100, _⟩ => ⟨S_, .f32⟩
  | .hbm, ⟨101, _⟩ => ⟨S50000, .f32⟩
  | .hbm, ⟨102, _⟩ => ⟨S50000, .f32⟩
  | .hbm, ⟨103, _⟩ => ⟨S50000x1, .f32⟩
  | .hbm, ⟨104, _⟩ => ⟨S50000x2, .f32⟩
  | .hbm, ⟨105, _⟩ => ⟨S50000x2, .f32⟩
  | .hbm, ⟨106, _⟩ => ⟨S50000x2, .f32⟩
  | .hbm, ⟨107, _⟩ => ⟨S_, .f32⟩
  | .hbm, ⟨108, _⟩ => ⟨S50000, .f32⟩
  | .hbm, ⟨109, _⟩ => ⟨S50000x1, .f32⟩
  | .hbm, ⟨110, _⟩ => ⟨S50000x1, .f32⟩
  | .hbm, ⟨111, _⟩ => ⟨S50000x2, .f32⟩
  | .hbm, ⟨112, _⟩ => ⟨S50000x2, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call3_cst : Ref sig .tc := ⟨.hbm, 98, rfl⟩
abbrev main_call3_v0 : Ref sig .tc := ⟨.hbm, 99, rfl⟩
abbrev main_call3_cst_0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_v6 : Ref sig .tc := ⟨.hbm, 106, rfl⟩
abbrev main_call3_cst_1 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_v70 : Ref sig .tc := ⟨.hbm, 112, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x2_S50000x2_1_0_0_1_n_n_wf : DotDims.WF S50000x256 S256x2 S50000x2 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.KRun.lean ====
/-
  The kernel program's run with its result named.

  @main of the kernel program is eight segments: three stretches of host operations (the edge lists and the
  symmetric normalisation), the first dense product, the first aggregation, the second dense product (with the
  rectifier on its input), the second aggregation, and the classifier with its row-wise log-softmax. Every weakly
  fair execution ends with each unscoped buffer at the fold of the segments over the launch memory; read at the
  result buffer this gives the value every later module computes with, and read at the arguments their launch
  contents.
-/
import proofs.«150589_j8770323219097_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result buffer ends at the
    last boundary's contents and the arguments as launched. -/
theorem run : θ_run defs (onTc (τ := τ) (main (F := F))) ⟨m, fun _ => 0, ρ⟩ (fun r => ∀ c : Dev nD,
      r.2.mem ((c.tc : Thread nD τ).loc main_v65) = W8 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v65 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.KRun

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibDenseRow.lean ====
/-
  A dense layer of a graph network read at an entry, in the two spellings a program gives it.

  For a feature matrix x : [n, K], weights w : [K, N] and a bias row b : [1, N], entry (r, j) of the layer is
  (∑ k, x (r, k) · w (k, j)) + b (0, j). A vector program computes it as a matrix product into the zero
  accumulator plus the bias row spread over the n rows; a host program as a dot_general plus the bias row
  broadcast along axis 0. Both are that sum at every entry. The same holds for the bias step alone,
  x (r, j) + b (0, j). A bias row that is zero everywhere adds nothing, on every extended real.
  A vector [N] set under a unit axis by a reshape or by a broadcast is the same row.
-/
import Idealize.ShloMosaic.Lib.ValueIdx
import Idealize.ShloMosaic.Lib.ValueLayout
import Idealize.ShloMosaic.Lib.Pipeline.Value
import Idealize.ShloMosaic.PureOps.Ideal.Laws
import proofs.«150589_j8770323219097_2_alg».proof.Proof.LibContract

noncomputable section

open scoped BigOperators

namespace Idealize.ShloMosaic.GcnDense

open Idealize.ShloMosaic Idealize.ShloMosaic.ValueIdx

/-- Entry (r, j) of x · w + b for a bias row b : [1, N]. -/
def entry {n K N : ℕ} (x : (⟨2, ![n, K]⟩ : Shape).Idx → EReal) (w : (⟨2, ![K, N]⟩ : Shape).Idx → EReal)
    (b : (⟨2, ![1, N]⟩ : Shape).Idx → EReal) (r : Fin n) (j : Fin N) : EReal :=
  (∑ k : Fin K, x (ix2 r k) * w (ix2 k j)) + b (ix2 (0 : Fin 1) j)

/-- An entry of the layer depends on row r of x, column j of w and entry j of the bias only, whatever the row counts. -/
theorem entry_congr {n n' K N : ℕ} (x : (⟨2, ![n, K]⟩ : Shape).Idx → EReal) (w : (⟨2, ![K, N]⟩ : Shape).Idx → EReal)
    (b : (⟨2, ![1, N]⟩ : Shape).Idx → EReal) (x' : (⟨2, ![n', K]⟩ : Shape).Idx → EReal) (w' : (⟨2, ![K, N]⟩ : Shape).Idx → EReal)
    (b' : (⟨2, ![1, N]⟩ : Shape).Idx → EReal) (r : Fin n) (r' : Fin n') (j : Fin N)
    (h0 : ∀ k, x (ix2 r k) = x' (ix2 r' k)) (h1 : ∀ k, w (ix2 k j) = w' (ix2 k j))
    (h2 : b (ix2 (0 : Fin 1) j) = b' (ix2 (0 : Fin 1) j)) :
    entry x w b r j = entry x' w' b' r' j := by
  unfold entry
  rw [h2]
  exact congrArg (· + b' (ix2 (0 : Fin 1) j)) (Finset.sum_congr rfl fun k _ => by rw [h0 k, h1 k])

/-- A bias row broadcast along axis 0 reads, at (r, j), the row's entry j. -/
theorem bias_rows_apply {α : Type} {n N : ℕ} (h2 : (⟨2, ![1, N]⟩ : Shape).BroadcastsInDim ⟨2, ![n, N]⟩ ![0, 1])
    (b : (⟨2, ![1, N]⟩ : Shape).Idx → α) (r : Fin n) (j : Fin N) :
    broadcastInDim (⟨2, ![n, N]⟩ : Shape) ![0, 1] h2 b (ix2 r j) = b (ix2 (0 : Fin 1) j) := by
  refine broadcastInDim_apply _ h2 b (ix2 r j) (ix2 (0 : Fin 1) j) (fun x => ?_)
  match x with
  | ⟨0, _⟩ =>
    show 0 = if (1 : Nat) = 1 then 0 else r.val
    rw [if_pos rfl]
  | ⟨1, _⟩ =>
    show j.val = if N = 1 then 0 else j.val
    split_ifs with h
    · have := j.isLt; omega
    · rfl

/-- The layer as a vector program computes it. -/
theorem kernel_layer_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (hc : (⟨2, ![1, N]⟩ : Shape).ShapeCasts ⟨2, ![1, N]⟩) (hb : (⟨2, ![1, N]⟩ : Shape).Broadcasts ⟨2, ![n, N]⟩)
    (r : Fin n) (j : Fin N) :
    addf (matmul D prec x w (constant (F := Ideal) (⟨2, ![n, N]⟩ : Shape) .f32 0x00000000#32))
        (broadcastTo (⟨2, ![n, N]⟩ : Shape) (shapeCast (⟨2, ![1, N]⟩ : Shape) b hc) hb) (ix2 r j)
      = entry x w b r j := by
  rw [addf_apply, broadcastTo_1b_ab_apply, shapeCast_self]
  refine congrArg (· + b (ix2 (0 : Fin 1) j)) ?_
  refine (Ideal.matmul_constant_zero_apply D prec x w (ix2 r j)).trans ?_
  exact Contract2.sum_contr_eq_sum_fin D hr hs hlc hrc hl0 hr1 x w (ix2 r j)

/-- The layer as a host program computes it. -/
theorem host_layer_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (h2 : (⟨2, ![1, N]⟩ : Shape).BroadcastsInDim ⟨2, ![n, N]⟩ ![0, 1])
    (r : Fin n) (j : Fin N) :
    addf (Host.dotGeneral D prec x w) (broadcastInDim (⟨2, ![n, N]⟩ : Shape) ![0, 1] h2 b) (ix2 r j)
      = entry x w b r j := by
  rw [addf_apply, bias_rows_apply h2 b r j]
  refine congrArg (· + b (ix2 (0 : Fin 1) j)) ?_
  simp only [Host.dotGeneral]
  refine (Ideal.dotGeneral_apply D prec _ x w (ix2 r j)).trans ?_
  exact Contract2.sum_contr_eq_sum_fin D hr hs hlc hrc hl0 hr1 x w (ix2 r j)

/-- The bias step as a vector program computes it: x (r, j) + b (0, j). -/
theorem kernel_bias_apply {n N : ℕ}
    (x : FVec Ideal (⟨2, ![n, N]⟩ : Shape) .f32) (b : FVec Ideal (⟨2, ![1, N]⟩ : Shape) .f32)
    (hx : (⟨2, ![n, N]⟩ : Shape).ShapeCasts ⟨2, ![n, N]⟩)
    (hc : (⟨2, ![1, N]⟩ : Shape).ShapeCasts ⟨2, ![1, N]⟩) (hb : (⟨2, ![1, N]⟩ : Shape).Broadcasts ⟨2, ![n, N]⟩)
    (r : Fin n) (j : Fin N) :
    addf (shapeCast (⟨2, ![n, N]⟩ : Shape) x hx)
        (broadcastTo (⟨2, ![n, N]⟩ : Shape) (shapeCast (⟨2, ![1, N]⟩ : Shape) b hc) hb) (ix2 r j)
      = x (ix2 r j) + b (ix2 (0 : Fin 1) j) := by
  rw [addf_apply, broadcastTo_1b_ab_apply, shapeCast_self, shapeCast_self]

/-- The bias step as a host program computes it. -/
theorem host_bias_apply {n N : ℕ}
    (x : FVec Ideal (⟨2, ![n, N]⟩ : Shape) .f32) (b : FVec Ideal (⟨2, ![1, N]⟩ : Shape) .f32)
    (h2 : (⟨2, ![1, N]⟩ : Shape).BroadcastsInDim ⟨2, ![n, N]⟩ ![0, 1]) (r : Fin n) (j : Fin N) :
    addf x (broadcastInDim (⟨2, ![n, N]⟩ : Shape) ![0, 1] h2 b) (ix2 r j) = x (ix2 r j) + b (ix2 (0 : Fin 1) j) := by
  rw [addf_apply, bias_rows_apply h2 b r j]

/-- A vector set under a unit axis by a reshape is the vector set there by a broadcast. -/
theorem row_reshape_eq_broadcast {α : Type} {N : ℕ} (v : (⟨1, ![N]⟩ : Shape).Idx → α)
    (hc : (⟨1, ![N]⟩ : Shape).ShapeCasts ⟨2, ![1, N]⟩) (h1 : (⟨1, ![N]⟩ : Shape).BroadcastsInDim ⟨2, ![1, N]⟩ ![1]) :
    shapeCast (⟨2, ![1, N]⟩ : Shape) v hc = broadcastInDim (⟨2, ![1, N]⟩ : Shape) ![1] h1 v := by
  funext i
  obtain ⟨p, q, rfl⟩ : ∃ (p : Fin 1) (q : Fin N), i = ix2 p q := ⟨i 0, i 1, eq_ix2 i⟩
  have hp : p = 0 := Subsingleton.elim _ _
  subst hp
  rw [shapeCast_a_1a_apply]
  refine (broadcastInDim_apply _ h1 v (ix2 (0 : Fin 1) q) (ix1 q) (fun x => ?_)).symm
  match x with
  | ⟨0, _⟩ =>
    show q.val = if N = 1 then 0 else q.val
    split_ifs with h
    · have := q.isLt; omega
    · rfl

/-- Adding a bias row that is the zero constant, spread from a scalar to [N], set under a unit axis and broadcast
    down the rows, changes nothing: x + 0 = x on every extended real. -/
theorem add_zero_row {n N : ℕ} (x : FVec Ideal (⟨2, ![n, N]⟩ : Shape) .f32)
    (h0 : (⟨0, ![]⟩ : Shape).BroadcastsInDim ⟨1, ![N]⟩ ![])
    (hc : (⟨1, ![N]⟩ : Shape).ShapeCasts ⟨2, ![1, N]⟩)
    (h2 : (⟨2, ![1, N]⟩ : Shape).BroadcastsInDim ⟨2, ![n, N]⟩ ![0, 1]) :
    addf x (broadcastInDim (⟨2, ![n, N]⟩ : Shape) ![0, 1] h2
      (shapeCast (⟨2, ![1, N]⟩ : Shape)
        (broadcastInDim (⟨1, ![N]⟩ : Shape) ![] h0 (constant (F := Ideal) (⟨0, ![]⟩ : Shape) .f32 0x00000000#32)) hc)) = x := by
  funext i
  obtain ⟨r, j, rfl⟩ : ∃ (r : Fin n) (j : Fin N), i = ix2 r j := ⟨i 0, i 1, eq_ix2 i⟩
  rw [addf_apply, bias_rows_apply h2 _ r j, shapeCast_a_1a_apply]
  rw [broadcastInDim_apply _ h0 _ (ix1 j) (fun a => a.elim0) (fun a => a.elim0)]
  rw [constant_apply, Ideal.ofBits_zero_f32, add_zero]

end Idealize.ShloMosaic.GcnDense

end
-- ==== Proof.LibGram.lean ====
/-
  Three readings of a matrix at an index, on the extended reals, for any extents.

  * A product of an [n0, K] matrix with an [n1, K] matrix that contracts the LAST axis of both (a Gram-type product
    x · yᵀ) sums, at the result index (r, c), over the positions of a one-axis contraction shape; re-indexed by that
    axis' coordinate it is ∑ k < K, l (r, k) · r (c, k). Stated for any dimension record of those shapes: the record owes
    one contracting axis of extent K (axis 1 on both sides) and free axes that read the result's coordinates.
  * A lane maximum of an [n, k] matrix over its ROWS (axis 0), at column c, is the fold of max from the accumulator's
    value over the n entries of that column; over its COLUMNS (axis 1), at row r, the fold over the row's k entries.
-/
import Idealize.ShloMosaic.PureOps.Ideal.Laws
import Idealize.ShloMosaic.Lib.ValueIdx

noncomputable section

open scoped BigOperators

namespace Idealize.ShloMosaic.Gram

open Idealize.ShloMosaic Idealize.ShloMosaic.ValueIdx

/-- The contraction sum of x · yᵀ at a result index is the sum over the shared last coordinate. -/
theorem sum_contr_last {n0 n1 K : ℕ} {M : Type*} [AddCommMonoid M] [Mul M]
    (D : DotDims (⟨2, ![n0, K]⟩ : Shape) (⟨2, ![n1, K]⟩ : Shape) (⟨2, ![n0, n1]⟩ : Shape))
    (hr : D.contr.rank = 1) (hs : D.contr.size ⟨0, by omega⟩ = K)
    (hlc : D.lhsContracting = [1]) (hrc : D.rhsContracting = [1])
    (hl0 : ∀ j q, (D.lhsIdx j q 0).val = (j 0).val) (hr0 : ∀ j q, (D.rhsIdx j q 0).val = (j 1).val)
    (l : (⟨2, ![n0, K]⟩ : Shape).Idx → M) (r : (⟨2, ![n1, K]⟩ : Shape).Idx → M) (j : (⟨2, ![n0, n1]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 (j 1) k := funext fun a => Fin.ext (by
    match a with
    | ⟨0, _⟩ => exact hr0 _ _
    | ⟨1, _⟩ => exact h2.trans hk)
  exact congrArg₂ (· * ·) (congrArg l el) (congrArg r er)

/-- The reduced index `c` with the row `r` put back is the matrix index `(r, c)`. -/
theorem lift_cols {n k : ℕ} (h : (⟨2, ![n, k]⟩ : Shape).Reduces [0] ⟨1, ![k]⟩) (c : Fin k) (r : Fin n) :
    h.lift (ix1 c) r = ix2 r c :=
  funext fun a => Fin.ext (by match a with | ⟨0, _⟩ => rfl | ⟨1, _⟩ => rfl)

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- A lane maximum over the rows of an `[n, k]` matrix, at column `c`: the fold of max over that column. -/
theorem multiReduction_max_cols_apply {n k : ℕ} (src : FVec Ideal ⟨2, ![n, k]⟩ .f32) (acc : BitVec 32)
    (h : (⟨2, ![n, k]⟩ : Shape).Reduces [0] ⟨1, ![k]⟩) (hφ : FKind.Formats .f32)
    (hacc : acc = FKind.maximumf.neutral .f32 hφ) (c : Fin k) :
    multiReduction .maximumf [0] ⟨1, ![k]⟩ src acc h hφ hacc (ix1 c)
      = (Finset.univ : Finset (Fin n)).fold max (Ideal.ofBits .f32 acc) (fun r => src (ix2 r c)) :=
  (Ideal.multiReduction_maximumf_single src acc h hφ hacc (ix1 c)).trans
    (Finset.fold_congr fun r _ => congrArg src (lift_cols h c r))

/-- A lane maximum over the columns of an `[n, k]` matrix, at row `r`: the fold of max over that row. -/
theorem multiReduction_max_rows_apply {n k : ℕ} (src : FVec Ideal ⟨2, ![n, k]⟩ .f32) (acc : BitVec 32)
    (h : (⟨2, ![n, k]⟩ : Shape).Reduces [1] ⟨1, ![n]⟩) (hφ : FKind.Formats .f32)
    (hacc : acc = FKind.maximumf.neutral .f32 hφ) (r : Fin n) :
    multiReduction .maximumf [1] ⟨1, ![n]⟩ src acc h hφ hacc (ix1 r)
      = (Finset.univ : Finset (Fin k)).fold max (Ideal.ofBits .f32 acc) (fun c => src (ix2 r c)) :=
  (Ideal.multiReduction_maximumf_single src acc h hφ hacc (ix1 r)).trans
    (Finset.fold_congr fun c _ => congrArg src (lift_rows h r c))

end Idealize.ShloMosaic.Gram

end
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.LibHostRows.lean ====
/-
  The host's reductions along the rows of a matrix, read at a row, on the extended reals and for any extents.

  A `stablehlo.reduce` over axis 1 of an [n, k] matrix whose body takes the larger of two values is, at row r, the
  fold of max from the initial value over the row's k entries; one whose body adds is the initial value plus the sum
  of the row's k entries.
-/
import Idealize.ShloMosaic.PureOps.Ideal.Laws
import Idealize.ShloMosaic.Lib.ValueIdx

noncomputable section

open scoped BigOperators

namespace Idealize.ShloMosaic.HostRows

open Idealize.ShloMosaic Idealize.ShloMosaic.ValueIdx

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- On the extended reals the float maximum is the order's. -/
theorem maximumf_eq_max : (FloatOps.maximumf (F := Ideal) (φ := .f32)) = (max : EReal → EReal → EReal) := by
  funext x y; rfl

/-- A host reduce with max over the columns of an `[n, k]` matrix, at row `r`: the fold of max over that row. -/
theorem reduce_max_rows_apply {n k : ℕ} (z : (⟨2, ![n, k]⟩ : Shape).Idx → EReal) {u : Shape} (init : u.Idx → EReal)
    (h' : (⟨2, ![n, k]⟩ : Shape).ReducesTo [1] ⟨1, ![n]⟩) (h : (⟨2, ![n, k]⟩ : Shape).Reduces [1] ⟨1, ![n]⟩)
    (hu : 0 < u.numel) (r : Fin n) :
    Host.reduce (max : EReal → EReal → EReal) z init h' hu (ix1 r)
      = (Finset.univ : Finset (Fin k)).fold max (init (Shape.Idx.first hu)) (fun c => z (ix2 r c)) :=
  (Host.reduce_eq_fold_single max z init h' h hu (ix1 r)).trans
    (Finset.fold_congr fun c _ => congrArg z (lift_rows h r c))

/-- A host reduce with add over the columns of an `[n, k]` matrix, at row `r`: the initial value plus the row's sum. -/
theorem reduceAdd_rows_apply {n k : ℕ} (x : FVec Ideal ⟨2, ![n, k]⟩ .f32) {u : Shape} (init : u.Idx → EReal)
    (h' : (⟨2, ![n, k]⟩ : Shape).ReducesTo [1] ⟨1, ![n]⟩) (h : (⟨2, ![n, k]⟩ : Shape).Reduces [1] ⟨1, ![n]⟩)
    (hu : 0 < u.numel) (r : Fin n) :
    Host.reduceAdd (F := Ideal) (φ := .f32) x init h' hu (ix1 r) = init (Shape.Idx.first hu) + ∑ c : Fin k, x (ix2 r c) := by
  show Ideal.hostReduceAdd h' x (init (Shape.Idx.first hu)) (ix1 r) = _
  rw [Ideal.hostReduceAdd_single h' h]
  exact congrArg (init (Shape.Idx.first hu) + ·) (Finset.sum_congr rfl fun c _ => congrArg x (lift_rows h r c))

end Idealize.ShloMosaic.HostRows

end
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibLogSoftmaxRows.lean ====
/-
  The shifted log-softmax of the rows of a matrix, read at an entry, in the two spellings a program gives it.

  For a : [n, N] and a row r let M r be the fold of max from −∞ over the row's N entries. The shifted log-softmax of
  row r at column j is (a (r, j) − M r) − log (∑ j', exp (a (r, j') − M r)). A vector program computes it with a lane
  maximum and a lane sum over the columns, each kept as an [n, 1] column and broadcast back along the rows; a host
  program with a reduce by max from −∞ (and one more max with −∞, which changes nothing), a reduce by add from
  zero, and broadcasts through [n, 1]. Both are that expression at every entry, on every extended real.
-/
import Idealize.ShloMosaic.Lib.ValueIdx
import Idealize.ShloMosaic.Lib.Pipeline.Value
import Idealize.ShloMosaic.PureOps.Ideal.Laws
import proofs.«150589_j8770323219097_2_alg».proof.Proof.LibGram
import proofs.«150589_j8770323219097_2_alg».proof.Proof.LibRowSum
import proofs.«150589_j8770323219097_2_alg».proof.Proof.LibHostRows
import proofs.«150589_j8770323219097_2_alg».proof.Proof.LibColumn
import proofs.«150589_j8770323219097_2_alg».proof.Proof.LibKeepdims

noncomputable section

open scoped BigOperators

namespace Idealize.ShloMosaic.LogSoftmaxRows

open Idealize.ShloMosaic Idealize.ShloMosaic.ValueIdx

variable {n n' N : ℕ}

/-- The largest entry of row r, folded from −∞. -/
def rowTop (a : (⟨2, ![n, N]⟩ : Shape).Idx → EReal) (r : Fin n) : EReal :=
  (Finset.univ : Finset (Fin N)).fold max (Ideal.ofBits .f32 0xFF800000#32) (fun c => a (ix2 r c))

/-- Entry (r, j) of the shifted log-softmax of the rows of a. -/
def shifted (a : (⟨2, ![n, N]⟩ : Shape).Idx → EReal) (r : Fin n) (j : Fin N) : EReal :=
  (a (ix2 r j) - rowTop a r) - Ideal.log (∑ c : Fin N, Ideal.exp (a (ix2 r c) - rowTop a r))

/-- Row r of the result depends on row r of the operand only. -/
theorem shifted_congr (a : (⟨2, ![n, N]⟩ : Shape).Idx → EReal) (a' : (⟨2, ![n', N]⟩ : Shape).Idx → EReal)
    (r : Fin n) (r' : Fin n') (j : Fin N) (h : ∀ c, a (ix2 r c) = a' (ix2 r' c)) :
    shifted a r j = shifted a' r' j := by
  have hm : rowTop a r = rowTop a' r' := by
    unfold rowTop
    exact Finset.fold_congr fun c _ => h c
  unfold shifted
  rw [hm, h j]
  exact congrArg (fun s => a' (ix2 r' j) - rowTop a' r' - Ideal.log s) (Finset.sum_congr rfl fun c _ => by rw [h c])

theorem log_apply {s : Shape} (v : FVec Ideal s .f32) (i : s.Idx) : log v i = Ideal.log (v i) := rfl
theorem exp_apply {s : Shape} (v : FVec Ideal s .f32) (i : s.Idx) : exp v i = Ideal.exp (v i) := rfl
theorem host_log_apply {s : Shape} (v : FVec Ideal s .f32) (i : s.Idx) : Host.log v i = Ideal.log (v i) := rfl
theorem host_exp_apply {s : Shape} (v : FVec Ideal s .f32) (i : s.Idx) : Host.exp v i = Ideal.exp (v i) := rfl

/-- The row maximum as a vector program keeps it: a lane maximum, viewed as a column, broadcast along the row. -/
theorem kernel_top_apply (a : FVec Ideal ⟨2, ![n, N]⟩ .f32)
    (h : (⟨2, ![n, N]⟩ : Shape).Reduces [1] ⟨1, ![n]⟩) (hφ : FKind.Formats .f32)
    (hmax : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, N]⟩)
    (r : Fin n) (c : Fin N) :
    broadcastTo ⟨2, ![n, N]⟩ (shapeCast ⟨2, ![n, 1]⟩ (multiReduction .maximumf [1] ⟨1, ![n]⟩ a 0xFF800000#32 h hφ hmax) hc) hb (ix2 r c)
      = rowTop a r := by
  rw [broadcastTo_a1_ab_apply, shapeCast_a_a1_apply, Gram.multiReduction_max_rows_apply]
  rfl

/-- The shifted log-softmax as a vector program computes it. -/
theorem kernel_apply (a : FVec Ideal ⟨2, ![n, N]⟩ .f32)
    (h : (⟨2, ![n, N]⟩ : Shape).Reduces [1] ⟨1, ![n]⟩) (hφ : FKind.Formats .f32)
    (hmax : (0xFF800000#32 : BitVec 32) = FKind.maximumf.neutral .f32 hφ)
    (hadd : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, N]⟩)
    (r : Fin n) (j : Fin N) :
    subf (subf a (broadcastTo ⟨2, ![n, N]⟩ (shapeCast ⟨2, ![n, 1]⟩ (multiReduction .maximumf [1] ⟨1, ![n]⟩ a 0xFF800000#32 h hφ hmax) hc) hb))
      (broadcastTo ⟨2, ![n, N]⟩ (log (shapeCast ⟨2, ![n, 1]⟩ (multiReduction .add [1] ⟨1, ![n]⟩
        (exp (subf a (broadcastTo ⟨2, ![n, N]⟩ (shapeCast ⟨2, ![n, 1]⟩ (multiReduction .maximumf [1] ⟨1, ![n]⟩ a 0xFF800000#32 h hφ hmax) hc) hb)))
        0x00000000#32 h hφ hadd) hc)) hb) (ix2 r j)
      = shifted a r j := by
  rw [subf_apply, subf_apply, kernel_top_apply a h hφ hmax hc hb r j, broadcastTo_a1_ab_apply, log_apply,
    shapeCast_a_a1_apply, multiReduction_add_rows_apply]
  unfold shifted
  refine congrArg (fun s => a (ix2 r j) - rowTop a r - Ideal.log s) (Finset.sum_congr rfl fun c _ => ?_)
  rw [exp_apply, subf_apply, kernel_top_apply a h hφ hmax hc hb r c]

/-- The row maximum as a host program keeps it: a reduce by max from −∞, one more max with −∞, stood up as a column
    and spread along the row. -/
theorem host_top_apply (a : FVec Ideal ⟨2, ![n, N]⟩ .f32)
    (h' : (⟨2, ![n, N]⟩ : Shape).ReducesTo [1] ⟨1, ![n]⟩) (h : (⟨2, ![n, N]⟩ : Shape).Reduces [1] ⟨1, ![n]⟩)
    (hu : 0 < (⟨0, ![]⟩ : Shape).numel)
    (g0 : (⟨0, ![]⟩ : Shape).BroadcastsInDim ⟨1, ![n]⟩ ![])
    (g1 : (⟨1, ![n]⟩ : Shape).BroadcastsInDim ⟨2, ![n, 1]⟩ ![0])
    (g2 : (⟨2, ![n, 1]⟩ : Shape).BroadcastsInDim ⟨2, ![n, N]⟩ ![0, 1])
    (r : Fin n) (c : Fin N) :
    broadcastInDim (⟨2, ![n, N]⟩ : Shape) ![0, 1] g2 (broadcastInDim (⟨2, ![n, 1]⟩ : Shape) ![0] g1
      (maximumf (broadcastInDim (⟨1, ![n]⟩ : Shape) ![] g0 (constant (F := Ideal) (⟨0, ![]⟩ : Shape) .f32 0xFF800000#32))
        (Host.reduce (FloatOps.maximumf (F := Ideal) (φ := .f32)) a (constant (F := Ideal) (⟨0, ![]⟩ : Shape) .f32 0xFF800000#32) h' hu))) (ix2 r c)
      = rowTop a r := by
  rw [Keepdims.rows_apply g1 g2 _ r c, maximumf_apply,
    broadcastInDim_apply _ g0 _ (ix1 r) (fun x => x.elim0) (fun x => x.elim0), constant_apply,
    HostRows.maximumf_eq_max, HostRows.reduce_max_rows_apply a _ h' h hu r, constant_apply]
  exact max_eq_right ((Finset.le_fold_max _).mpr (Or.inl le_rfl))

/-- The shifted log-softmax as a host program computes it. -/
theorem host_apply (a : FVec Ideal ⟨2, ![n, N]⟩ .f32)
    (h' : (⟨2, ![n, N]⟩ : Shape).ReducesTo [1] ⟨1, ![n]⟩) (h : (⟨2, ![n, N]⟩ : Shape).Reduces [1] ⟨1, ![n]⟩)
    (hu : 0 < (⟨0, ![]⟩ : Shape).numel)
    (g0 : (⟨0, ![]⟩ : Shape).BroadcastsInDim ⟨1, ![n]⟩ ![])
    (g1 : (⟨1, ![n]⟩ : Shape).BroadcastsInDim ⟨2, ![n, 1]⟩ ![0])
    (g2 : (⟨2, ![n, 1]⟩ : Shape).BroadcastsInDim ⟨2, ![n, N]⟩ ![0, 1])
    (r : Fin n) (j : Fin N) :
    subf (subf a (broadcastInDim (⟨2, ![n, N]⟩ : Shape) ![0, 1] g2 (broadcastInDim (⟨2, ![n, 1]⟩ : Shape) ![0] g1
        (maximumf (broadcastInDim (⟨1, ![n]⟩ : Shape) ![] g0 (constant (F := Ideal) (⟨0, ![]⟩ : Shape) .f32 0xFF800000#32))
          (Host.reduce (FloatOps.maximumf (F := Ideal) (φ := .f32)) a (constant (F := Ideal) (⟨0, ![]⟩ : Shape) .f32 0xFF800000#32) h' hu)))))
      (broadcastInDim (⟨2, ![n, N]⟩ : Shape) ![0, 1] g2 (Host.log (broadcastInDim (⟨2, ![n, 1]⟩ : Shape) ![0] g1
        (Host.reduceAdd (F := Ideal) (φ := .f32)
          (Host.exp (subf a (broadcastInDim (⟨2, ![n, N]⟩ : Shape) ![0, 1] g2 (broadcastInDim (⟨2, ![n, 1]⟩ : Shape) ![0] g1
            (maximumf (broadcastInDim (⟨1, ![n]⟩ : Shape) ![] g0 (constant (F := Ideal) (⟨0, ![]⟩ : Shape) .f32 0xFF800000#32))
              (Host.reduce (FloatOps.maximumf (F := Ideal) (φ := .f32)) a (constant (F := Ideal) (⟨0, ![]⟩ : Shape) .f32 0xFF800000#32) h' hu))))))
          (constant (F := Ideal) (⟨0, ![]⟩ : Shape) .f32 0x00000000#32) h' hu)))) (ix2 r j)
      = shifted a r j := by
  rw [subf_apply, subf_apply, host_top_apply a h' h hu g0 g1 g2 r j]
  rw [broadcastInDim_apply _ g2 _ (ix2 r j) (ix2 r (0 : Fin 1)) (fun x => by
    match x with
    | ⟨0, _⟩ =>
      show r.val = if n = 1 then 0 else r.val
      split_ifs with hn
      · have := r.isLt; omega
      · rfl
    | ⟨1, _⟩ =>
      show 0 = if (1 : Nat) = 1 then 0 else j.val
      rw [if_pos rfl])]
  rw [host_log_apply, Keepdims.column_apply g1 _ r, HostRows.reduceAdd_rows_apply _ _ h' h hu r, constant_apply, Ideal.ofBits_zero_f32, zero_add]
  unfold shifted
  refine congrArg (fun s => a (ix2 r j) - rowTop a r - Ideal.log s) (Finset.sum_congr rfl fun c _ => ?_)
  rw [host_exp_apply, subf_apply, host_top_apply a h' h hu g0 g1 g2 r c]

end Idealize.ShloMosaic.LogSoftmaxRows

end
-- ==== Proof.Spec.lean ====
/-
  The mathematics of the two programs' dense steps, entry by entry, on the extended reals.

  A graph-convolution layer is a dense product followed by a normalised sum over neighbours. The neighbour sums are
  the same host operations in both programs and are never opened; what differs is how the three dense steps are
  computed: block by block of 1000 rows in one program, in one piece in the other. Here are the three steps as
  functions of whole arrays:
    * `prod x w`      : (x · w) (r, j) = ∑ k, x (r, k) · w (k, j);
    * `reluProd x w`  : (relu x · w) (r, j) = ∑ k, max (x (r, k)) 0 · w (k, j);
    * `classify x w b`: the shifted log-softmax along each row of relu x · w + b, with b a bias row [1, N].
  Each entry depends on one row of x only; no algebraic law is needed to compare the programs, only the fact that
  a row of a block is a row of the array.
-/
import Idealize.ShloMosaic.Lib.ValueIdx
import Idealize.ShloMosaic.PureOps.Ideal.Laws
import proofs.«150589_j8770323219097_2_alg».proof.Proof.LibDenseRow
import proofs.«150589_j8770323219097_2_alg».proof.Proof.LibLogSoftmaxRows

noncomputable section

open scoped BigOperators

namespace Gcn2

open Idealize.ShloMosaic Idealize.ShloMosaic.ValueIdx

variable {n K N : ℕ}

/-- The rectifier on an extended real: the larger of the value and the real zero (read off the f32 word 0). -/
def relu (z : EReal) : EReal := max z (Ideal.ofBits .f32 0x00000000#32)

/-- Entry (r, j) of x · w. -/
def prodAt (x : (⟨2, ![n, K]⟩ : Shape).Idx → EReal) (w : (⟨2, ![K, N]⟩ : Shape).Idx → EReal) (r : Fin n) (j : Fin N) : EReal :=
  ∑ k : Fin K, x (ix2 r k) * w (ix2 k j)

/-- x · w. -/
def prod (x : (⟨2, ![n, K]⟩ : Shape).Idx → EReal) (w : (⟨2, ![K, N]⟩ : Shape).Idx → EReal) : (⟨2, ![n, N]⟩ : Shape).Idx → EReal :=
  fun i => prodAt x w ⟨(i 0).val, (i 0).isLt⟩ ⟨(i 1).val, (i 1).isLt⟩

/-- relu x, entry by entry. -/
def reluArr (x : (⟨2, ![n, K]⟩ : Shape).Idx → EReal) : (⟨2, ![n, K]⟩ : Shape).Idx → EReal := fun i => relu (x i)

/-- relu x · w. -/
def reluProd (x : (⟨2, ![n, K]⟩ : Shape).Idx → EReal) (w : (⟨2, ![K, N]⟩ : Shape).Idx → EReal) : (⟨2, ![n, N]⟩ : Shape).Idx → EReal :=
  prod (reluArr x) w

/-- The logits relu x · w + b with b a bias row, as an array. -/
def logits (x : (⟨2, ![n, K]⟩ : Shape).Idx → EReal) (w : (⟨2, ![K, N]⟩ : Shape).Idx → EReal)
    (b : (⟨2, ![1, N]⟩ : Shape).Idx → EReal) : (⟨2, ![n, N]⟩ : Shape).Idx → EReal :=
  fun i => GcnDense.entry (reluArr x) w b ⟨(i 0).val, (i 0).isLt⟩ ⟨(i 1).val, (i 1).isLt⟩

/-- The classifier: the shifted log-softmax of each row of the logits. -/
def classify (x : (⟨2, ![n, K]⟩ : Shape).Idx → EReal) (w : (⟨2, ![K, N]⟩ : Shape).Idx → EReal)
    (b : (⟨2, ![1, N]⟩ : Shape).Idx → EReal) : (⟨2, ![n, N]⟩ : Shape).Idx → EReal :=
  fun i => LogSoftmaxRows.shifted (logits x w b) ⟨(i 0).val, (i 0).isLt⟩ ⟨(i 1).val, (i 1).isLt⟩

theorem prod_apply (x : (⟨2, ![n, K]⟩ : Shape).Idx → EReal) (w : (⟨2, ![K, N]⟩ : Shape).Idx → EReal) (r : Fin n) (j : Fin N) :
    prod x w (ix2 r j) = prodAt x w r j := rfl

theorem logits_apply (x : (⟨2, ![n, K]⟩ : Shape).Idx → EReal) (w : (⟨2, ![K, N]⟩ : Shape).Idx → EReal)
    (b : (⟨2, ![1, N]⟩ : Shape).Idx → EReal) (r : Fin n) (j : Fin N) :
    logits x w b (ix2 r j) = GcnDense.entry (reluArr x) w b r j := rfl

theorem classify_apply (x : (⟨2, ![n, K]⟩ : Shape).Idx → EReal) (w : (⟨2, ![K, N]⟩ : Shape).Idx → EReal)
    (b : (⟨2, ![1, N]⟩ : Shape).Idx → EReal) (r : Fin n) (j : Fin N) :
    classify x w b (ix2 r j) = LogSoftmaxRows.shifted (logits x w b) r j := rfl

/-- An entry of a product depends on one row of the left factor: equal rows give equal entries, whatever the row counts. -/
theorem prodAt_congr {n' : ℕ} (x : (⟨2, ![n, K]⟩ : Shape).Idx → EReal) (x' : (⟨2, ![n', K]⟩ : Shape).Idx → EReal)
    (w w' : (⟨2, ![K, N]⟩ : Shape).Idx → EReal) (r : Fin n) (r' : Fin n') (j : Fin N)
    (hx : ∀ k, x (ix2 r k) = x' (ix2 r' k)) (hw : ∀ k, w (ix2 k j) = w' (ix2 k j)) :
    prodAt x w r j = prodAt x' w' r' j :=
  Finset.sum_congr rfl fun k _ => by rw [hx k, hw k]

end Gcn2

end
-- ==== Proof.Bodies.lean ====
/-
  The three kernel bodies read at an entry of the block they store.

  Each body loads a block of 1000 rows of its first operand and the whole of its other operands and stores one
  block of 1000 rows. Entry (p, q) of the stored block is
    region 0 :  ∑ k, x (p, k) · w (k, q);
    region 1 :  ∑ k, max (x (p, k)) 0 · w (k, q);
    region 2 :  the shifted log-softmax along row p of  max x 0 · w + b  at column q, b a bias row [1, 2],
  with x the loaded block. The matrix products run into the zero accumulator, so each is the plain sum over the
  shared axis; the lane maximum and the lane sum of region 2 are the fold of max and the sum over the two columns.
-/
import proofs.«150589_j8770323219097_2_alg».proof.Proof.Gen.KernelIdeal.Skeleton
import proofs.«150589_j8770323219097_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Bodies

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The three bodies at an entry -/

theorem dotA_l0 (j : S1000x256.Idx) (q : dot_S1000x256_S256x256_S1000x256_1_0_0_1_n_n.contr.Idx) :
    (dot_S1000x256_S256x256_S1000x256_1_0_0_1_n_n.lhsIdx j q 0).val = (j 0).val := by
  unfold DotDims.lhsIdx
  rw [dif_neg (show ¬(0 : Fin S1000x256.rank) ∈ dot_S1000x256_S256x256_S1000x256_1_0_0_1_n_n.lhsBatch by decide),
    dif_pos (show (0 : Fin S1000x256.rank) ∈ dot_S1000x256_S256x256_S1000x256_1_0_0_1_n_n.lhsNonContracting by decide)]
  rfl
theorem dotA_r1 (j : S1000x256.Idx) (q : dot_S1000x256_S256x256_S1000x256_1_0_0_1_n_n.contr.Idx) :
    (dot_S1000x256_S256x256_S1000x256_1_0_0_1_n_n.rhsIdx j q 1).val = (j 1).val := by
  unfold DotDims.rhsIdx
  rw [dif_neg (show ¬(1 : Fin S256x256.rank) ∈ dot_S1000x256_S256x256_S1000x256_1_0_0_1_n_n.rhsBatch by decide),
    dif_pos (show (1 : Fin S256x256.rank) ∈ dot_S1000x256_S256x256_S1000x256_1_0_0_1_n_n.rhsNonContracting by decide)]
  rfl
theorem dotB_l0 (j : S1000x2.Idx) (q : dot_S1000x256_S256x2_S1000x2_1_0_0_1_n_n.contr.Idx) :
    (dot_S1000x256_S256x2_S1000x2_1_0_0_1_n_n.lhsIdx j q 0).val = (j 0).val := by
  unfold DotDims.lhsIdx
  rw [dif_neg (show ¬(0 : Fin S1000x256.rank) ∈ dot_S1000x256_S256x2_S1000x2_1_0_0_1_n_n.lhsBatch by decide),
    dif_pos (show (0 : Fin S1000x256.rank) ∈ dot_S1000x256_S256x2_S1000x2_1_0_0_1_n_n.lhsNonContracting by decide)]
  rfl
theorem dotB_r1 (j : S1000x2.Idx) (q : dot_S1000x256_S256x2_S1000x2_1_0_0_1_n_n.contr.Idx) :
    (dot_S1000x256_S256x2_S1000x2_1_0_0_1_n_n.rhsIdx j q 1).val = (j 1).val := by
  unfold DotDims.rhsIdx
  rw [dif_neg (show ¬(1 : Fin S256x2.rank) ∈ dot_S1000x256_S256x2_S1000x2_1_0_0_1_n_n.rhsBatch by decide),
    dif_pos (show (1 : Fin S256x2.rank) ∈ dot_S1000x256_S256x2_S1000x2_1_0_0_1_n_n.rhsNonContracting by decide)]
  rfl

/-- The rectified block, entry by entry. -/
theorem relu_block (x0 : Vec Ideal S1000x256 .f32) :
    maximumf (shapeCast S1000x256 x0 shapeCasts_S1000x256_S1000x256) (broadcast S1000x256 (Scalar.ofBits (F := Ideal) .f32 0x00000000#32))
      = Gcn2.reluArr (n := 1000) (K := 256) x0 := by
  rw [shapeCast_self]
  rfl

/-- Region 0's body: the block's rows times the weights. -/
theorem pay0_apply (x0 : Vec Ideal S1000x256 .f32) (x1 : Vec Ideal S256x256 .f32) (p : Fin 1000) (q : Fin 256) :
    k0_pay1 x0 x1 (ix2 p q) = Gcn2.prodAt (n := 1000) (K := 256) (N := 256) x0 x1 p q := by
  unfold k0_pay1
  refine (Ideal.matmul_constant_zero_apply dot_S1000x256_S256x256_S1000x256_1_0_0_1_n_n none x0 x1 (ix2 p q)).trans ?_
  exact Contract2.sum_contr_eq_sum_fin dot_S1000x256_S256x256_S1000x256_1_0_0_1_n_n rfl rfl rfl rfl dotA_l0 dotA_r1 x0 x1 (ix2 p q)

/-- Region 1's body: the rectified block's rows times the weights. -/
theorem pay1_apply (x0 : Vec Ideal S1000x256 .f32) (x1 : Vec Ideal S256x256 .f32) (p : Fin 1000) (q : Fin 256) :
    k1_pay1 x0 x1 (ix2 p q) = Gcn2.prodAt (n := 1000) (K := 256) (N := 256) (Gcn2.reluArr x0) x1 p q := by
  unfold k1_pay1
  rw [relu_block]
  refine (Ideal.matmul_constant_zero_apply dot_S1000x256_S256x256_S1000x256_1_0_0_1_n_n none (Gcn2.reluArr (n := 1000) (K := 256) x0 : FVec Ideal S1000x256 .f32) x1 (ix2 p q)).trans ?_
  exact Contract2.sum_contr_eq_sum_fin dot_S1000x256_S256x256_S1000x256_1_0_0_1_n_n rfl rfl rfl rfl dotA_l0 dotA_r1 (Gcn2.reluArr (n := 1000) (K := 256) x0 : FVec Ideal S1000x256 .f32) x1 (ix2 p q)

/-- Region 2's logits, as the body spells them, are the specification's logits of the block. -/
theorem logits_block (x0 : Vec Ideal S1000x256 .f32) (x1 : Vec Ideal S256x2 .f32) (x2 : Vec Ideal S1x2 .f32) :
    addf (@matmul Ideal _ S1000x256 S256x2 S1000x2 .f32 .f32 dot_S1000x256_S256x2_S1000x2_1_0_0_1_n_n none (Gcn2.reluArr (n := 1000) (K := 256) x0) x1 (constant (F := Ideal) S1000x2 .f32 0x00000000#32))
        (broadcastTo S1000x2 (shapeCast S1x2 x2 shapeCasts_S1x2_S1x2) broadcasts_S1x2_S1000x2)
      = Gcn2.logits (n := 1000) (K := 256) (N := 2) x0 x1 x2 := by
  funext i
  obtain ⟨r, j, rfl⟩ : ∃ (r : Fin 1000) (j : Fin 2), i = ix2 r j := ⟨i 0, i 1, eq_ix2 i⟩
  rw [Gcn2.logits_apply]
  exact GcnDense.kernel_layer_apply dot_S1000x256_S256x2_S1000x2_1_0_0_1_n_n rfl rfl rfl rfl dotB_l0 dotB_r1 none
    (Gcn2.reluArr (n := 1000) (K := 256) x0 : FVec Ideal S1000x256 .f32) x1 x2 shapeCasts_S1x2_S1x2 broadcasts_S1x2_S1000x2 r j

/-- Region 2's body: the shifted log-softmax of the block's logits. -/
theorem pay2_apply (x0 : Vec Ideal S1000x256 .f32) (x1 : Vec Ideal S256x2 .f32) (x2 : Vec Ideal S1x2 .f32) (p : Fin 1000) (q : Fin 2) :
    k2_pay1 x0 x1 x2 (ix2 p q) = LogSoftmaxRows.shifted (Gcn2.logits (n := 1000) (K := 256) (N := 2) x0 x1 x2) p q := by
  unfold k2_pay1
  dsimp only
  rw [relu_block, logits_block]
  exact LogSoftmaxRows.kernel_apply (Gcn2.logits (n := 1000) (K := 256) (N := 2) x0 x1 x2) reduces_S1000x2_S1000 (.inl rfl) rfl rfl
    shapeCasts_S1000_S1000x1 broadcasts_S1000x1_S1000x2 p q

end Cert.KernelIdeal.Bodies

end
-- ==== Proof.Region0.lean ====
/-
  What each of the three dense regions leaves in its output array, as one function of the arrays it finds.

  Each region walks the 50000 rows in 50 blocks of 1000. At block t it reads rows 1000·t … 1000·t + 999 of its
  first operand and the whole of its other operands, and writes back rows 1000·t … 1000·t + 999 of its result.
  An entry of a dense product (and of a row-wise log-softmax of one) depends on one row of the left factor only, so
  block t of the result is block t of the same function of the whole arrays, and since the 50 blocks tile the array
  the array ends at that function:
    region 0 :  x · w;     region 1 :  relu x · w;     region 2 :  log-softmax of the rows of relu x · w + b.
  All statements are for ANY contents V of the buffers at the region's entry.
-/
import proofs.«150589_j8770323219097_2_alg».proof.Proof.Gen.KernelIdeal.Frame
import proofs.«150589_j8770323219097_2_alg».proof.Proof.Bodies

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The printed index maps over the grid: the row-blocked windows sit at block t, the whole ones at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of x · w. -/
theorem flushed0 (c : Dev nD) (t : Fin cfg0.N) :
    (dat0 V c).flushed 2 t = ((cfg0.win 2).blk t).view.read (Elt Ideal)
      (Gcn2.prod (n := 50000) (K := 256) (N := 256) (V c main_arg0) (V c main_arg2)) := by
  show (cfg0.win 2).cut (grid0.coords t) ((dat0 V c).after 2 t) = _
  rw [after0_2]
  unfold out0_2
  rw [View.canon_unit_zero hz]
  simp only [View.ld_unit_zero (S := S1000x256) hz, View.ld_unit_zero (S := S256x256) hz]
  obtain ⟨e0, e1, e2, e3, e4, e5⟩ := idx0 t
  have hN : cfg0.N = 50 := N_0
  have ht : t.val < 50 := hN ▸ t.isLt
  funext j
  obtain ⟨p, q, rfl⟩ : ∃ (p : Fin 1000) (q : Fin 256), j = ix2 p q := ⟨j 0, j 1, eq_ix2 j⟩
  have hp : p.val < 1000 := p.isLt
  have hemb : ((cfg0.win 2).blk t).view.emb (ix2 p q) = ix2 (n0 := 50000) (n1 := 256) ⟨t.val * 1000 + p.val, by omega⟩ q := by
    funext a; apply Fin.ext
    match a with
    | ⟨0, _⟩ => show win0_2.index t (0 : Fin 2) * 1000 + 1 * p.val = t.val * 1000 + p.val; omega
    | ⟨1, _⟩ => show win0_2.index t (1 : Fin 2) * 256 + 1 * q.val = q.val; omega
  show k0_pay1 (iblk0 V c 0 t) (iblk0 V c 1 t) (ix2 p q)
    = Gcn2.prod (n := 50000) (K := 256) (N := 256) (V c main_arg0) (V c main_arg2) (((cfg0.win 2).blk t).view.emb (ix2 p q))
  rw [hemb, Gcn2.prod_apply]
  refine (Bodies.pay0_apply (iblk0 V c 0 t) (iblk0 V c 1 t) p q).trans ?_
  refine Gcn2.prodAt_congr (n := 1000) (n' := 50000) (K := 256) (N := 256) (iblk0 V c 0 t) (V c main_arg0) (iblk0 V c 1 t) (V c main_arg2) p _ q (fun k => ?_) (fun k => ?_)
  · show V c main_arg0 (((cfg0.win 0).blk t).view.emb (ix2 p k)) = _
    refine congrArg (V c main_arg0) (funext fun a => Fin.ext ?_)
    match a with
    | ⟨0, _⟩ => show win0_0.index t (0 : Fin 2) * 1000 + 1 * p.val = t.val * 1000 + p.val; omega
    | ⟨1, _⟩ => show win0_0.index t (1 : Fin 2) * 256 + 1 * k.val = k.val; omega
  · show V c main_arg2 (((cfg0.win 1).blk t).view.emb (ix2 k q)) = _
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 256 + 1 * q.val = q.val; omega

/-- An index of the array is in point t's block iff each coordinate is in the block's range on its axis. -/
theorem mem_blk0 (t : Fin cfg0.N) (i : S50000x256.Idx) :
    i ∈ ((cfg0.win 2).blk t).view.set ↔ ∀ a : Fin 2, win0_2.index t a * S1000x256.size a ≤ (i a).val ∧ (i a).val < win0_2.index t a * S1000x256.size a + S1000x256.size a := by
  show i ∈ ((View.whole main_v30).slice (win0_2.rect t)).set ↔ _
  rw [View.set_slice_whole, Rect.mem_set_unit]
  exact Iff.rfl

/-- The 50 blocks tile the array: row r is in block r / 1000. -/
theorem cover0 (i : S50000x256.Idx) : ∃ t : Fin cfg0.N, (cfg0.win 2).flush t = true ∧ i ∈ ((cfg0.win 2).blk t).view.set := by
  have hN : cfg0.N = 50 := N_0
  have hi0 : (i 0).val < 50000 := (i 0).isLt
  have hi1 : (i 1).val < 256 := (i 1).isLt
  have hlt : (i 0).val / 1000 < cfg0.N := by rw [hN]; omega
  refine ⟨⟨(i 0).val / 1000, hlt⟩, flush0_2 _, ?_⟩
  rw [mem_blk0]
  obtain ⟨e0, e1, e2, e3, e4, e5⟩ := idx0 ⟨(i 0).val / 1000, hlt⟩
  have e4' : win0_2.index ⟨(i 0).val / 1000, hlt⟩ (0 : Fin 2) = (i 0).val / 1000 := e4
  intro a
  match a with
  | ⟨0, _⟩ => show win0_2.index _ (0 : Fin 2) * 1000 ≤ (i 0).val ∧ (i 0).val < win0_2.index _ (0 : Fin 2) * 1000 + 1000; omega
  | ⟨1, _⟩ => show win0_2.index _ (1 : Fin 2) * 256 ≤ (i 1).val ∧ (i 1).val < win0_2.index _ (1 : Fin 2) * 256 + 256; omega

/-- Region 0 leaves x · w in its result array. -/
theorem final0 (c : Dev nD) : (dat0 V c).arrAt 2 cfg0.N = Gcn2.prod (n := 50000) (K := 256) (N := 256) (V c main_arg0) (V c main_arg2) :=
  (dat0 V c).arrAt_eq_of_cover 2 _ (fun t _ => flushed0 V c t) cover0

end Cert.KernelIdeal.Region0

end
-- ==== Proof.Region1.lean ====
/-
  What the second dense region leaves in its output array.

  The region walks the 50000 rows of the first aggregation's result in 50 blocks of 1000; at block t it rectifies
  rows 1000·t … 1000·t + 999, multiplies them by the whole second weight matrix and writes back the same rows of
  its result. An entry of relu x · w depends on one row of x only, so block t of the result is block t of
  relu x · w of the whole arrays, and the 50 blocks tile the array. For ANY contents V at the region's entry.
-/
import proofs.«150589_j8770323219097_2_alg».proof.Proof.Gen.KernelIdeal.Frame
import proofs.«150589_j8770323219097_2_alg».proof.Proof.Bodies

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block t, the whole one at block 0. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of relu x · w. -/
theorem flushed1 (c : Dev nD) (t : Fin cfg1.N) :
    (dat1 V c).flushed 2 t = ((cfg1.win 2).blk t).view.read (Elt Ideal)
      (Gcn2.reluProd (n := 50000) (K := 256) (N := 256) (V c main_v46) (V c main_arg4)) := by
  show (cfg1.win 2).cut (grid1.coords t) ((dat1 V c).after 2 t) = _
  rw [after1_2]
  unfold out1_2
  rw [View.canon_unit_zero hz]
  simp only [View.ld_unit_zero (S := S1000x256) hz, View.ld_unit_zero (S := S256x256) hz]
  obtain ⟨e0, e1, e2, e3, e4, e5⟩ := idx1 t
  have hN : cfg1.N = 50 := N_1
  have ht : t.val < 50 := hN ▸ t.isLt
  funext j
  obtain ⟨p, q, rfl⟩ : ∃ (p : Fin 1000) (q : Fin 256), j = ix2 p q := ⟨j 0, j 1, eq_ix2 j⟩
  have hp : p.val < 1000 := p.isLt
  have hemb : ((cfg1.win 2).blk t).view.emb (ix2 p q) = ix2 (n0 := 50000) (n1 := 256) ⟨t.val * 1000 + p.val, by omega⟩ q := by
    funext a; apply Fin.ext
    match a with
    | ⟨0, _⟩ => show win1_2.index t (0 : Fin 2) * 1000 + 1 * p.val = t.val * 1000 + p.val; omega
    | ⟨1, _⟩ => show win1_2.index t (1 : Fin 2) * 256 + 1 * q.val = q.val; omega
  show k1_pay1 (iblk1 V c 0 t) (iblk1 V c 1 t) (ix2 p q)
    = Gcn2.reluProd (n := 50000) (K := 256) (N := 256) (V c main_v46) (V c main_arg4) (((cfg1.win 2).blk t).view.emb (ix2 p q))
  rw [hemb]
  unfold Gcn2.reluProd
  rw [Gcn2.prod_apply]
  refine (Bodies.pay1_apply (iblk1 V c 0 t) (iblk1 V c 1 t) p q).trans ?_
  refine Gcn2.prodAt_congr (n := 1000) (n' := 50000) (K := 256) (N := 256) (Gcn2.reluArr (iblk1 V c 0 t)) (Gcn2.reluArr (V c main_v46)) (iblk1 V c 1 t) (V c main_arg4) p _ q (fun k => ?_) (fun k => ?_)
  · show Gcn2.relu (V c main_v46 (((cfg1.win 0).blk t).view.emb (ix2 p k))) = Gcn2.relu (V c main_v46 _)
    refine congrArg (fun z => Gcn2.relu (V c main_v46 z)) (funext fun a => Fin.ext ?_)
    match a with
    | ⟨0, _⟩ => show win1_0.index t (0 : Fin 2) * 1000 + 1 * p.val = t.val * 1000 + p.val; omega
    | ⟨1, _⟩ => show win1_0.index t (1 : Fin 2) * 256 + 1 * k.val = k.val; omega
  · show V c main_arg4 (((cfg1.win 1).blk t).view.emb (ix2 k q)) = _
    refine congrArg (V c main_arg4) (funext fun a => Fin.ext ?_)
    match a with
    | ⟨0, _⟩ => show win1_1.index t (0 : Fin 2) * 256 + 1 * k.val = k.val; omega
    | ⟨1, _⟩ => show win1_1.index t (1 : Fin 2) * 256 + 1 * q.val = q.val; omega

/-- An index of the array is in point t's block iff each coordinate is in the block's range on its axis. -/
theorem mem_blk1 (t : Fin cfg1.N) (i : S50000x256.Idx) :
    i ∈ ((cfg1.win 2).blk t).view.set ↔ ∀ a : Fin 2, win1_2.index t a * S1000x256.size a ≤ (i a).val ∧ (i a).val < win1_2.index t a * S1000x256.size a + S1000x256.size a := by
  show i ∈ ((View.whole main_v47).slice (win1_2.rect t)).set ↔ _
  rw [View.set_slice_whole, Rect.mem_set_unit]
  exact Iff.rfl

/-- The 50 blocks tile the array: row r is in block r / 1000. -/
theorem cover1 (i : S50000x256.Idx) : ∃ t : Fin cfg1.N, (cfg1.win 2).flush t = true ∧ i ∈ ((cfg1.win 2).blk t).view.set := by
  have hN : cfg1.N = 50 := N_1
  have hi0 : (i 0).val < 50000 := (i 0).isLt
  have hi1 : (i 1).val < 256 := (i 1).isLt
  have hlt : (i 0).val / 1000 < cfg1.N := by rw [hN]; omega
  refine ⟨⟨(i 0).val / 1000, hlt⟩, flush1_2 _, ?_⟩
  rw [mem_blk1]
  obtain ⟨e0, e1, e2, e3, e4, e5⟩ := idx1 ⟨(i 0).val / 1000, hlt⟩
  have e4' : win1_2.index ⟨(i 0).val / 1000, hlt⟩ (0 : Fin 2) = (i 0).val / 1000 := e4
  intro a
  match a with
  | ⟨0, _⟩ => show win1_2.index _ (0 : Fin 2) * 1000 ≤ (i 0).val ∧ (i 0).val < win1_2.index _ (0 : Fin 2) * 1000 + 1000; omega
  | ⟨1, _⟩ => show win1_2.index _ (1 : Fin 2) * 256 ≤ (i 1).val ∧ (i 1).val < win1_2.index _ (1 : Fin 2) * 256 + 256; omega

/-- Region 1 leaves relu x · w in its result array. -/
theorem final1 (c : Dev nD) : (dat1 V c).arrAt 2 cfg1.N = Gcn2.reluProd (n := 50000) (K := 256) (N := 256) (V c main_v46) (V c main_arg4) :=
  (dat1 V c).arrAt_eq_of_cover 2 _ (fun t _ => flushed1 V c t) cover1

end Cert.KernelIdeal.Region1

end
-- ==== Proof.Region2.lean ====
/-
  What the classifier region leaves in its output array.

  The region walks the 50000 rows of the second aggregation's result in 50 blocks of 1000; at block t it rectifies
  rows 1000·t … 1000·t + 999, multiplies them by the whole [256, 2] weight matrix, adds the bias row, takes the
  shifted log-softmax along each row, and writes back the same rows of its result. Row r of the result depends on
  row r of the operand only, so block t of the result is block t of the classifier of the whole arrays, and the 50
  blocks tile the array. For ANY contents V at the region's entry.
-/
import proofs.«150589_j8770323219097_2_alg».proof.Proof.Gen.KernelIdeal.Frame
import proofs.«150589_j8770323219097_2_alg».proof.Proof.Bodies

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block t, the whole ones at block 0. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the classifier of the whole arrays. -/
theorem flushed2 (c : Dev nD) (t : Fin cfg2.N) :
    (dat2 V c).flushed 3 t = ((cfg2.win 3).blk t).view.read (Elt Ideal)
      (Gcn2.classify (n := 50000) (K := 256) (N := 2) (V c main_v63) (V c main_arg6) (V c main_v64)) := by
  show (cfg2.win 3).cut (grid2.coords t) ((dat2 V c).after 3 t) = _
  rw [after2_3]
  unfold out2_3
  rw [View.canon_unit_zero hz]
  simp only [View.ld_unit_zero (S := S1000x256) hz, View.ld_unit_zero (S := S256x2) hz, View.ld_unit_zero (S := S1x2) hz]
  obtain ⟨e0, e1, e2, e3, e4, e5, e6, e7⟩ := idx2 t
  have hN : cfg2.N = 50 := N_2
  have ht : t.val < 50 := hN ▸ t.isLt
  funext j
  obtain ⟨p, q, rfl⟩ : ∃ (p : Fin 1000) (q : Fin 2), j = ix2 p q := ⟨j 0, j 1, eq_ix2 j⟩
  have hp : p.val < 1000 := p.isLt
  have hemb : ((cfg2.win 3).blk t).view.emb (ix2 p q) = ix2 (n0 := 50000) (n1 := 2) ⟨t.val * 1000 + p.val, by omega⟩ q := by
    funext a; apply Fin.ext
    match a with
    | ⟨0, _⟩ => show win2_3.index t (0 : Fin 2) * 1000 + 1 * p.val = t.val * 1000 + p.val; omega
    | ⟨1, _⟩ => show win2_3.index t (1 : Fin 2) * 2 + 1 * q.val = q.val; omega
  show k2_pay1 (iblk2 V c 0 t) (iblk2 V c 1 t) (iblk2 V c 2 t) (ix2 p q)
    = Gcn2.classify (n := 50000) (K := 256) (N := 2) (V c main_v63) (V c main_arg6) (V c main_v64) (((cfg2.win 3).blk t).view.emb (ix2 p q))
  rw [hemb, Gcn2.classify_apply]
  refine (Bodies.pay2_apply (iblk2 V c 0 t) (iblk2 V c 1 t) (iblk2 V c 2 t) p q).trans ?_
  refine LogSoftmaxRows.shifted_congr (n := 1000) (n' := 50000) (N := 2) _ _ p _ q (fun col => ?_)
  rw [Gcn2.logits_apply, Gcn2.logits_apply]
  refine GcnDense.entry_congr (n := 1000) (n' := 50000) (K := 256) (N := 2) (Gcn2.reluArr (iblk2 V c 0 t)) (iblk2 V c 1 t) (iblk2 V c 2 t)
    (Gcn2.reluArr (V c main_v63)) (V c main_arg6) (V c main_v64) p _ col (fun k => ?_) (fun k => ?_) ?_
  · show Gcn2.relu (V c main_v63 (((cfg2.win 0).blk t).view.emb (ix2 p k))) = Gcn2.relu (V c main_v63 _)
    refine congrArg (fun z => Gcn2.relu (V c main_v63 z)) (funext fun a => Fin.ext ?_)
    match a with
    | ⟨0, _⟩ => show win2_0.index t (0 : Fin 2) * 1000 + 1 * p.val = t.val * 1000 + p.val; omega
    | ⟨1, _⟩ => show win2_0.index t (1 : Fin 2) * 256 + 1 * k.val = k.val; omega
  · show V c main_arg6 (((cfg2.win 1).blk t).view.emb (ix2 k col)) = _
    refine congrArg (V c main_arg6) (funext fun a => Fin.ext ?_)
    match a with
    | ⟨0, _⟩ => show win2_1.index t (0 : Fin 2) * 256 + 1 * k.val = k.val; omega
    | ⟨1, _⟩ => show win2_1.index t (1 : Fin 2) * 2 + 1 * col.val = col.val; omega
  · show V c main_v64 (((cfg2.win 2).blk t).view.emb (ix2 (0 : Fin 1) col)) = _
    refine congrArg (V c main_v64) (funext fun a => Fin.ext ?_)
    match a with
    | ⟨0, _⟩ => show win2_2.index t (0 : Fin 2) * 1 + 1 * 0 = 0; omega
    | ⟨1, _⟩ => show win2_2.index t (1 : Fin 2) * 2 + 1 * col.val = col.val; omega

/-- An index of the array is in point t's block iff each coordinate is in the block's range on its axis. -/
theorem mem_blk2 (t : Fin cfg2.N) (i : S50000x2.Idx) :
    i ∈ ((cfg2.win 3).blk t).view.set ↔ ∀ a : Fin 2, win2_3.index t a * S1000x2.size a ≤ (i a).val ∧ (i a).val < win2_3.index t a * S1000x2.size a + S1000x2.size a := by
  show i ∈ ((View.whole main_v65).slice (win2_3.rect t)).set ↔ _
  rw [View.set_slice_whole, Rect.mem_set_unit]
  exact Iff.rfl

/-- The 50 blocks tile the array: row r is in block r / 1000. -/
theorem cover2 (i : S50000x2.Idx) : ∃ t : Fin cfg2.N, (cfg2.win 3).flush t = true ∧ i ∈ ((cfg2.win 3).blk t).view.set := by
  have hN : cfg2.N = 50 := N_2
  have hi0 : (i 0).val < 50000 := (i 0).isLt
  have hi1 : (i 1).val < 2 := (i 1).isLt
  have hlt : (i 0).val / 1000 < cfg2.N := by rw [hN]; omega
  refine ⟨⟨(i 0).val / 1000, hlt⟩, flush2_3 _, ?_⟩
  rw [mem_blk2]
  obtain ⟨e0, e1, e2, e3, e4, e5, e6, e7⟩ := idx2 ⟨(i 0).val / 1000, hlt⟩
  have e6' : win2_3.index ⟨(i 0).val / 1000, hlt⟩ (0 : Fin 2) = (i 0).val / 1000 := e6
  intro a
  match a with
  | ⟨0, _⟩ => show win2_3.index _ (0 : Fin 2) * 1000 ≤ (i 0).val ∧ (i 0).val < win2_3.index _ (0 : Fin 2) * 1000 + 1000; omega
  | ⟨1, _⟩ => show win2_3.index _ (1 : Fin 2) * 2 ≤ (i 1).val ∧ (i 1).val < win2_3.index _ (1 : Fin 2) * 2 + 2; omega

/-- Region 2 leaves the classifier of its operands in its result array. -/
theorem final2 (c : Dev nD) : (dat2 V c).arrAt 3 cfg2.N
    = Gcn2.classify (n := 50000) (K := 256) (N := 2) (V c main_v63) (V c main_arg6) (V c main_v64) :=
  (dat2 V c).arrAt_eq_of_cover 3 _ (fun t _ => flushed2 V c t) cover2

end Cert.KernelIdeal.Region2

end
-- ==== Proof.RefStages.lean ====
/-
  The reference program's three dense steps as the specification's functions.

  The reference computes each dense product in one piece on the host. Read at an entry, its first product is
  ∑ k, x (r, k) · w (k, j); its second the same sum over the rectified aggregate; and its last stage — the product
  with the [256, 2] weights, the bias row broadcast down the rows, and jax.nn.log_softmax along each row — is the
  shifted log-softmax of the logits' row. The aggregation stages between them are left as they are.
-/
import proofs.«150589_j8770323219097_2_alg».proof.Proof.RefReadP
import proofs.«150589_j8770323219097_2_alg».proof.Proof.Spec

noncomputable section

open scoped BigOperators

namespace Cert.ReferenceIdeal.RefStages

open Cert.ReferenceIdeal Cert.ReferenceIdeal.Gen Cert.ReferenceIdeal.ReadP
open Idealize.ShloMosaic Idealize.ShloMosaic.TcCoe Idealize.ShloMosaic.ValueIdx Idealize.SL.Sem

/-- The first dense product. -/
theorem ref30 (x0 : (⟨S50000x256, .f32⟩ : BufTy).Contents (Elt Ideal)) (x2 : (⟨S256x256, .f32⟩ : BufTy).Contents (Elt Ideal)) :
    val_main_v30 (F := Ideal) x0 x2 = Gcn2.prod (n := 50000) (K := 256) (N := 256) x0 x2 := by
  funext i
  obtain ⟨r, j, rfl⟩ : ∃ (r : Fin 50000) (j : Fin 256), i = ix2 r j := ⟨i 0, i 1, eq_ix2 i⟩
  rw [val_main_v30_apply, Gcn2.prod_apply]
  refine Finset.sum_congr rfl fun k _ => ?_
  exact congrArg₂ (· * ·) (congrArg x0 (funext fun a => by match a with | ⟨0, _⟩ => rfl | ⟨1, _⟩ => rfl))
    (congrArg x2 (funext fun a => by match a with | ⟨0, _⟩ => rfl | ⟨1, _⟩ => rfl))

/-- The rectifier between the layers, entry by entry. -/
theorem ref47 (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) :
    val_main_v47 (F := Ideal) x0 x1 x2 x3 = Gcn2.reluArr (n := 50000) (K := 256) (val_main_v46 (F := Ideal) x0 x1 x2 x3) := by
  funext i
  rw [val_main_v47_apply, val_main_call1_v0_apply, val_main_call1_cst_apply]
  generalize val_main_v46 (F := Ideal) x0 x1 x2 x3 = y
  rfl

/-- The second dense product, of the rectified first aggregate. -/
theorem ref48 (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) :
    val_main_v48 (F := Ideal) x0 x1 x2 x3 x4
      = Gcn2.reluProd (n := 50000) (K := 256) (N := 256) (val_main_v46 (F := Ideal) x0 x1 x2 x3) x4 := by
  funext i
  obtain ⟨r, j, rfl⟩ : ∃ (r : Fin 50000) (j : Fin 256), i = ix2 r j := ⟨i 0, i 1, eq_ix2 i⟩
  rw [val_main_v48_apply, ref47]
  unfold Gcn2.reluProd
  rw [Gcn2.prod_apply]
  generalize val_main_v46 (F := Ideal) x0 x1 x2 x3 = y
  refine Finset.sum_congr rfl fun k _ => ?_
  exact congrArg₂ (· * ·) (congrArg (Gcn2.reluArr y) (funext fun a => by match a with | ⟨0, _⟩ => rfl | ⟨1, _⟩ => rfl))
    (congrArg x4 (funext fun a => by match a with | ⟨0, _⟩ => rfl | ⟨1, _⟩ => rfl))

/-- The rectifier before the classifier, entry by entry. -/
theorem ref65 (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) :
    val_main_v65 (F := Ideal) x0 x1 x2 x3 x4 x5 = Gcn2.reluArr (n := 50000) (K := 256) (val_main_v64 (F := Ideal) x0 x1 x2 x3 x4 x5) := by
  funext i
  rw [val_main_v65_apply, val_main_call2_v0_apply, val_main_call2_cst_apply]
  generalize val_main_v64 (F := Ideal) x0 x1 x2 x3 x4 x5 = y
  rfl

/-- The logits: the rectified second aggregate times the [256, 2] weights plus the bias row. -/
theorem ref69 (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x2, .f32⟩ : BufTy).Contents (Elt Ideal)) (x7 : (⟨S2, .f32⟩ : BufTy).Contents (Elt Ideal)) :
    val_main_v69 (F := Ideal) x0 x1 x2 x3 x4 x5 x6 x7
      = Gcn2.logits (n := 50000) (K := 256) (N := 2) (val_main_v64 (F := Ideal) x0 x1 x2 x3 x4 x5) x6 (val_main_v67 (F := Ideal) x7) := by
  funext i
  obtain ⟨r, j, rfl⟩ : ∃ (r : Fin 50000) (j : Fin 2), i = ix2 r j := ⟨i 0, i 1, eq_ix2 i⟩
  rw [Gcn2.logits_apply]
  unfold val_main_v69 val_main_v68 val_main_v66
  rw [ref65]
  generalize val_main_v64 (F := Ideal) x0 x1 x2 x3 x4 x5 = y
  exact GcnDense.host_layer_apply dot_S50000x256_S256x2_S50000x2_1_0_0_1_n_n rfl rfl rfl rfl lhs_main_v66_0 rhs_main_v66_1 none
    (Gcn2.reluArr (n := 50000) (K := 256) y) x6 (val_main_v67 (F := Ideal) x7) bcast_S1x2_S50000x2_0_1 r j

/-- The last stage: the shifted log-softmax of each row of the logits. -/
theorem ref70 (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x2, .f32⟩ : BufTy).Contents (Elt Ideal)) (x7 : (⟨S2, .f32⟩ : BufTy).Contents (Elt Ideal)) :
    val_main_v70 (F := Ideal) x0 x1 x2 x3 x4 x5 x6 x7
      = Gcn2.classify (n := 50000) (K := 256) (N := 2) (val_main_v64 (F := Ideal) x0 x1 x2 x3 x4 x5) x6 (val_main_v67 (F := Ideal) x7) := by
  funext i
  obtain ⟨r, j, rfl⟩ : ∃ (r : Fin 50000) (j : Fin 2), i = ix2 r j := ⟨i 0, i 1, eq_ix2 i⟩
  rw [Gcn2.classify_apply, ← ref69 x0 x1 x2 x3 x4 x5 x6 x7]
  unfold val_main_v70 val_main_call3_v10 val_main_call3_v9 val_main_call3_v8 val_main_call3_v7 val_main_call3_v6 val_main_call3_v5
    val_main_call3_v4 val_main_call3_v3 val_main_call3_v2 val_main_call3_v1 val_main_call3_v0 val_main_call3_cst val_main_call3_cst_0
    val_main_call3_cst_1
  generalize val_main_v69 (F := Ideal) x0 x1 x2 x3 x4 x5 x6 x7 = a
  exact LogSoftmaxRows.host_apply a reducesTo_S50000x2_S50000_d1 (by decide) h_S_ bcast_S_S50000 bcast_S50000_S50000x1_0
    bcast_S50000x1_S50000x2_0_1 r j

end Cert.ReferenceIdeal.RefStages

end
-- ==== Proof.Stitch.lean ====
/-
  The kernel program's buffers at the boundaries between its segments, as the reference's stages.

  Walking @main from the launch: the three host stretches in front compute the edge lists with their self-loops and
  the symmetric normalisation from the edge index alone, by the operations the reference applies; region 0 leaves
  x · W1, which is the reference's first product; the next stretch aggregates it over the edges and adds the bias —
  again the reference's operations, applied to equal values, so the stretch is carried as it stands and never
  opened —; region 1 leaves relu of that times W2, the reference's second product; the next stretch aggregates
  again; and region 2 leaves the classifier of the result, the reference's last stage. A buffer no segment writes
  keeps its launch contents, and a buffer a region does not own passes through it.
-/
import proofs.«150589_j8770323219097_2_alg».proof.Proof.Gen.KernelIdeal.Frame
import proofs.«150589_j8770323219097_2_alg».proof.Proof.Region0
import proofs.«150589_j8770323219097_2_alg».proof.Proof.Region1
import proofs.«150589_j8770323219097_2_alg».proof.Proof.Region2
import proofs.«150589_j8770323219097_2_alg».proof.Proof.RefStages
import Idealize.ShloMosaic.Lib.StableHlo.Run

set_option maxRecDepth 16384

noncomputable section

namespace Cert.KernelIdeal.Stitch

open Cert.KernelIdeal Cert.KernelIdeal.Gen
open Idealize.ShloMosaic Idealize.ShloMosaic.TcCoe Idealize.ShloMosaic.ValueIdx Idealize.SL.Sem Idealize.ShloMosaic.StableHlo
open Cert.ReferenceIdeal.ReadP Cert.ReferenceIdeal.RefStages

variable (m : (ℓ : Loc nD τ sig) → Buf (Elt Ideal) ℓ) (ρ : Dev nD → PrngReg)

/-- A buffer none of a stretch's operations writes holds after the stretch what it held before. -/
local macro "kept_over " ops:ident " at " r:ident : tactic =>
  `(tactic| exact StableHlo.after_of_forall_not_mem (b := Proc.devRef .tc $r) _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes, Finset.mem_singleton]
      repeat' apply And.intro
      all_goals exact StableHlo.devRef_ne_of_ne (by decide))))

/-! ## The arguments at each boundary -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by kept_over hostOps0_2 at main_arg0
    _ = W1 m ρ c (Proc.devRef .tc main_arg0) := by kept_over hostOps0_1 at main_arg0
    _ = W0 m ρ c (Proc.devRef .tc main_arg0) := by kept_over hostOps0 at main_arg0
    _ = m ((c : Thread nD τ).loc main_arg0) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by kept_over hostOps0_2 at main_arg2
    _ = W1 m ρ c (Proc.devRef .tc main_arg2) := by kept_over hostOps0_1 at main_arg2
    _ = W0 m ρ c (Proc.devRef .tc main_arg2) := by kept_over hostOps0 at main_arg2
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by kept_over hostOps0_2 at main_arg3
    _ = W1 m ρ c (Proc.devRef .tc main_arg3) := by kept_over hostOps0_1 at main_arg3
    _ = W0 m ρ c (Proc.devRef .tc main_arg3) := by kept_over hostOps0 at main_arg3
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by kept_over hostOps0_2 at main_arg4
    _ = W1 m ρ c (Proc.devRef .tc main_arg4) := by kept_over hostOps0_1 at main_arg4
    _ = W0 m ρ c (Proc.devRef .tc main_arg4) := by kept_over hostOps0 at main_arg4
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by kept_over hostOps0_2 at main_arg5
    _ = W1 m ρ c (Proc.devRef .tc main_arg5) := by kept_over hostOps0_1 at main_arg5
    _ = W0 m ρ c (Proc.devRef .tc main_arg5) := by kept_over hostOps0 at main_arg5
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by kept_over hostOps0_2 at main_arg6
    _ = W1 m ρ c (Proc.devRef .tc main_arg6) := by kept_over hostOps0_1 at main_arg6
    _ = W0 m ρ c (Proc.devRef .tc main_arg6) := by kept_over hostOps0 at main_arg6
    _ = m ((c : Thread nD τ).loc main_arg6) := rfl

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by kept_over hostOps0_2 at main_arg7
    _ = W1 m ρ c (Proc.devRef .tc main_arg7) := by kept_over hostOps0_1 at main_arg7
    _ = W0 m ρ c (Proc.devRef .tc main_arg7) := by kept_over hostOps0 at main_arg7
    _ = m ((c : Thread nD τ).loc main_arg7) := rfl

/-! ## The edge lists and the normalisation: the three stretches in front of region 0 -/

theorem W1_main_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  dsimp only [hostOps0]
  after_results_simp
  rfl
theorem W1_main_v6 (c : Dev nD) : W1 m ρ c (Proc.devRef .tc main_v6) = val_main_v6 (F := Ideal) (m ((c : Thread nD τ).loc main_arg1)) := by
  show StableHlo.after hostOps0 (W0 m ρ c) (Proc.devRef .tc main_v6) = _
  dsimp only [hostOps0]
  after_results_simp
  rfl
theorem W1_main_v12 (c : Dev nD) : W1 m ρ c (Proc.devRef .tc main_v12) = val_main_v12 (F := Ideal) (m ((c : Thread nD τ).loc main_arg1)) := by
  show StableHlo.after hostOps0 (W0 m ρ c) (Proc.devRef .tc main_v12) = _
  dsimp only [hostOps0]
  after_results_simp
  rfl
theorem W1_main_v13 (c : Dev nD) : W1 m ρ c (Proc.devRef .tc main_v13) = val_main_v13 (F := Ideal) (m ((c : Thread nD τ).loc main_arg1)) := by
  show StableHlo.after hostOps0 (W0 m ρ c) (Proc.devRef .tc main_v13) = _
  dsimp only [hostOps0]
  after_results_simp
  rfl
theorem W1_main_cst_2 (c : Dev nD) : W1 m ρ c (Proc.devRef .tc main_cst_2) = val_main_cst_2 (F := Ideal) := by
  show StableHlo.after hostOps0 (W0 m ρ c) (Proc.devRef .tc main_cst_2) = _
  dsimp only [hostOps0]
  after_results_simp
  rfl

theorem W2_main_v3 (c : Dev nD) : W2 m ρ c (Proc.devRef .tc main_v3) = val_main_v3 (F := Ideal) (m ((c : Thread nD τ).loc main_arg1)) :=
  (by kept_over hostOps0_1 at main_v3 : W2 m ρ c (Proc.devRef .tc main_v3) = W1 m ρ c (Proc.devRef .tc main_v3)).trans (W1_main_v3 m ρ c)
theorem W2_main_v6 (c : Dev nD) : W2 m ρ c (Proc.devRef .tc main_v6) = val_main_v6 (F := Ideal) (m ((c : Thread nD τ).loc main_arg1)) :=
  (by kept_over hostOps0_1 at main_v6 : W2 m ρ c (Proc.devRef .tc main_v6) = W1 m ρ c (Proc.devRef .tc main_v6)).trans (W1_main_v6 m ρ c)
/-- The second stretch (jnp.where's three operations) at its result, for any contents before it: the select of the
    mask, the reciprocal square roots and the zero spread over the nodes. -/
theorem where_stretch (W : Valuation τ sig (Elt Ideal)) :
    StableHlo.after hostOps0_1 W (Proc.devRef .tc main_v14)
      = select (W (Proc.devRef .tc main_v12)) (W (Proc.devRef .tc main_v13))
          (broadcastInDim S50000 ![] bcast_S_S50000 (id (W (Proc.devRef .tc main_cst_2)))) := by
  dsimp only [hostOps0_1]
  after_results_simp
  rfl

theorem W2_main_v14 (c : Dev nD) : W2 m ρ c (Proc.devRef .tc main_v14) = val_main_v14 (F := Ideal) (m ((c : Thread nD τ).loc main_arg1)) := by
  refine (where_stretch (W1 m ρ c)).trans ?_
  rw [W1_main_v12 m ρ c, W1_main_v13 m ρ c, W1_main_cst_2 m ρ c]
  rfl

theorem W3_main_v3 (c : Dev nD) : W3 m ρ c (Proc.devRef .tc main_v3) = val_main_v3 (F := Ideal) (m ((c : Thread nD τ).loc main_arg1)) :=
  (by kept_over hostOps0_2 at main_v3 : W3 m ρ c (Proc.devRef .tc main_v3) = W2 m ρ c (Proc.devRef .tc main_v3)).trans (W2_main_v3 m ρ c)
theorem W3_main_v6 (c : Dev nD) : W3 m ρ c (Proc.devRef .tc main_v6) = val_main_v6 (F := Ideal) (m ((c : Thread nD τ).loc main_arg1)) :=
  (by kept_over hostOps0_2 at main_v6 : W3 m ρ c (Proc.devRef .tc main_v6) = W2 m ρ c (Proc.devRef .tc main_v6)).trans (W2_main_v6 m ρ c)
theorem W3_main_v29 (c : Dev nD) : W3 m ρ c (Proc.devRef .tc main_v29) = val_main_v29 (F := Ideal) (m ((c : Thread nD τ).loc main_arg1)) := by
  show StableHlo.after hostOps0_2 (W2 m ρ c) (Proc.devRef .tc main_v29) = _
  have e3 := W2_main_v3 m ρ c
  have e6 := W2_main_v6 m ρ c
  have e14 := W2_main_v14 m ρ c
  generalize W2 m ρ c = W at e3 e6 e14 ⊢
  dsimp only [hostOps0_2]
  after_results_simp
  rw [e3, e6, e14]
  rfl

/-! ## Through region 0 and the first aggregation -/
theorem W4_main_v3 (c : Dev nD) : W4 m ρ c (Proc.devRef .tc main_v3) = val_main_v3 (F := Ideal) (m ((c : Thread nD τ).loc main_arg1)) :=
  (W4_of_ne m ρ c main_v3 (by decide)).trans (W3_main_v3 m ρ c)
theorem W4_main_v6 (c : Dev nD) : W4 m ρ c (Proc.devRef .tc main_v6) = val_main_v6 (F := Ideal) (m ((c : Thread nD τ).loc main_arg1)) :=
  (W4_of_ne m ρ c main_v6 (by decide)).trans (W3_main_v6 m ρ c)
theorem W4_main_v29 (c : Dev nD) : W4 m ρ c (Proc.devRef .tc main_v29) = val_main_v29 (F := Ideal) (m ((c : Thread nD τ).loc main_arg1)) :=
  (W4_of_ne m ρ c main_v29 (by decide)).trans (W3_main_v29 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W4_main_arg6 (c : Dev nD) : W4 m ρ c (Proc.devRef .tc main_arg6) = m ((c : Thread nD τ).loc main_arg6) :=
  (W4_of_ne m ρ c main_arg6 (by decide)).trans (W3_main_arg6 m ρ c)
theorem W4_main_arg7 (c : Dev nD) : W4 m ρ c (Proc.devRef .tc main_arg7) = m ((c : Thread nD τ).loc main_arg7) :=
  (W4_of_ne m ρ c main_arg7 (by decide)).trans (W3_main_arg7 m ρ c)

/-- Region 0's result is the reference's first product. -/
theorem W4_main_v30 (c : Dev nD) : W4 m ρ c (Proc.devRef .tc main_v30) = val_main_v30 (F := Ideal) (m ((c : Thread nD τ).loc main_arg0)) (m ((c : Thread nD τ).loc main_arg2)) :=
  (W4_arr m ρ c 2).trans ((Region0.final0 (V3 m ρ) c).trans
    ((congrArg₂ (Gcn2.prod (n := 50000) (K := 256) (N := 256)) (W3_main_arg0 m ρ c) (W3_main_arg2 m ρ c)).trans
      (ref30 (m ((c : Thread nD τ).loc main_arg0)) (m ((c : Thread nD τ).loc main_arg2))).symm))

/-- The first aggregate: the reference's operations on equal values. -/
theorem W5_main_v46 (c : Dev nD) : W5 m ρ c (Proc.devRef .tc main_v46)
    = val_main_v46 (F := Ideal) (m ((c : Thread nD τ).loc main_arg0)) (m ((c : Thread nD τ).loc main_arg1)) (m ((c : Thread nD τ).loc main_arg2)) (m ((c : Thread nD τ).loc main_arg3)) := by
  show StableHlo.after hostOps1 (W4 m ρ c) (Proc.devRef .tc main_v46) = _
  dsimp only [hostOps1]
  after_results_simp
  rw [W4_main_v3 m ρ c, W4_main_v6 m ρ c, W4_main_v29 m ρ c, W4_main_v30 m ρ c, W4_main_arg3 m ρ c]
  rfl
theorem W5_main_v3 (c : Dev nD) : W5 m ρ c (Proc.devRef .tc main_v3) = val_main_v3 (F := Ideal) (m ((c : Thread nD τ).loc main_arg1)) :=
  (by kept_over hostOps1 at main_v3 : W5 m ρ c (Proc.devRef .tc main_v3) = W4 m ρ c (Proc.devRef .tc main_v3)).trans (W4_main_v3 m ρ c)
theorem W5_main_v6 (c : Dev nD) : W5 m ρ c (Proc.devRef .tc main_v6) = val_main_v6 (F := Ideal) (m ((c : Thread nD τ).loc main_arg1)) :=
  (by kept_over hostOps1 at main_v6 : W5 m ρ c (Proc.devRef .tc main_v6) = W4 m ρ c (Proc.devRef .tc main_v6)).trans (W4_main_v6 m ρ c)
theorem W5_main_v29 (c : Dev nD) : W5 m ρ c (Proc.devRef .tc main_v29) = val_main_v29 (F := Ideal) (m ((c : Thread nD τ).loc main_arg1)) :=
  (by kept_over hostOps1 at main_v29 : W5 m ρ c (Proc.devRef .tc main_v29) = W4 m ρ c (Proc.devRef .tc main_v29)).trans (W4_main_v29 m ρ c)
theorem W5_main_arg4 (c : Dev nD) : W5 m ρ c (Proc.devRef .tc main_arg4) = m ((c : Thread nD τ).loc main_arg4) :=
  (by kept_over hostOps1 at main_arg4 : W5 m ρ c (Proc.devRef .tc main_arg4) = W4 m ρ c (Proc.devRef .tc main_arg4)).trans (W4_main_arg4 m ρ c)
theorem W5_main_arg5 (c : Dev nD) : W5 m ρ c (Proc.devRef .tc main_arg5) = m ((c : Thread nD τ).loc main_arg5) :=
  (by kept_over hostOps1 at main_arg5 : W5 m ρ c (Proc.devRef .tc main_arg5) = W4 m ρ c (Proc.devRef .tc main_arg5)).trans (W4_main_arg5 m ρ c)
theorem W5_main_arg6 (c : Dev nD) : W5 m ρ c (Proc.devRef .tc main_arg6) = m ((c : Thread nD τ).loc main_arg6) :=
  (by kept_over hostOps1 at main_arg6 : W5 m ρ c (Proc.devRef .tc main_arg6) = W4 m ρ c (Proc.devRef .tc main_arg6)).trans (W4_main_arg6 m ρ c)
theorem W5_main_arg7 (c : Dev nD) : W5 m ρ c (Proc.devRef .tc main_arg7) = m ((c : Thread nD τ).loc main_arg7) :=
  (by kept_over hostOps1 at main_arg7 : W5 m ρ c (Proc.devRef .tc main_arg7) = W4 m ρ c (Proc.devRef .tc main_arg7)).trans (W4_main_arg7 m ρ c)

/-! ## Through region 1 and the second aggregation -/
theorem W6_main_v3 (c : Dev nD) : W6 m ρ c (Proc.devRef .tc main_v3) = val_main_v3 (F := Ideal) (m ((c : Thread nD τ).loc main_arg1)) :=
  (W6_of_ne m ρ c main_v3 (by decide)).trans (W5_main_v3 m ρ c)
theorem W6_main_v6 (c : Dev nD) : W6 m ρ c (Proc.devRef .tc main_v6) = val_main_v6 (F := Ideal) (m ((c : Thread nD τ).loc main_arg1)) :=
  (W6_of_ne m ρ c main_v6 (by decide)).trans (W5_main_v6 m ρ c)
theorem W6_main_v29 (c : Dev nD) : W6 m ρ c (Proc.devRef .tc main_v29) = val_main_v29 (F := Ideal) (m ((c : Thread nD τ).loc main_arg1)) :=
  (W6_of_ne m ρ c main_v29 (by decide)).trans (W5_main_v29 m ρ c)
theorem W6_main_arg5 (c : Dev nD) : W6 m ρ c (Proc.devRef .tc main_arg5) = m ((c : Thread nD τ).loc main_arg5) :=
  (W6_of_ne m ρ c main_arg5 (by decide)).trans (W5_main_arg5 m ρ c)
theorem W6_main_arg6 (c : Dev nD) : W6 m ρ c (Proc.devRef .tc main_arg6) = m ((c : Thread nD τ).loc main_arg6) :=
  (W6_of_ne m ρ c main_arg6 (by decide)).trans (W5_main_arg6 m ρ c)
theorem W6_main_arg7 (c : Dev nD) : W6 m ρ c (Proc.devRef .tc main_arg7) = m ((c : Thread nD τ).loc main_arg7) :=
  (W6_of_ne m ρ c main_arg7 (by decide)).trans (W5_main_arg7 m ρ c)

/-- Region 1's result is the reference's second product. -/
theorem W6_main_v47 (c : Dev nD) : W6 m ρ c (Proc.devRef .tc main_v47)
    = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W6_arr m ρ c 2).trans ((Region1.final1 (V5 m ρ) c).trans
    ((congrArg₂ (Gcn2.reluProd (n := 50000) (K := 256) (N := 256)) (W5_main_v46 m ρ c) (W5_main_arg4 m ρ c)).trans
      (ref48 (m ((c : Thread nD τ).loc main_arg0)) (m ((c : Thread nD τ).loc main_arg1)) (m ((c : Thread nD τ).loc main_arg2)) (m ((c : Thread nD τ).loc main_arg3)) (m ((c : Thread nD τ).loc main_arg4))).symm))

/-- The second aggregate: the reference's operations on equal values. -/
theorem W7_main_v63 (c : Dev nD) : W7 m ρ c (Proc.devRef .tc main_v63)
    = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W6 m ρ c) (Proc.devRef .tc main_v63) = _
  dsimp only [hostOps2]
  after_results_simp
  rw [W6_main_v3 m ρ c, W6_main_v6 m ρ c, W6_main_v29 m ρ c, W6_main_v47 m ρ c, W6_main_arg5 m ρ c]
  rfl

/-- The bias of the classifier as a row: a reshape in one program, a broadcast in the other. -/
theorem W7_main_v64 (c : Dev nD) : W7 m ρ c (Proc.devRef .tc main_v64) = val_main_v67 (F := Ideal) (m ((c : Thread nD τ).loc main_arg7)) := by
  show StableHlo.after hostOps2 (W6 m ρ c) (Proc.devRef .tc main_v64) = _
  dsimp only [hostOps2]
  after_results_simp
  rw [W6_main_arg7 m ρ c]
  unfold val_main_v67
  exact GcnDense.row_reshape_eq_broadcast (N := 2) _ _ _

theorem W7_main_arg6 (c : Dev nD) : W7 m ρ c (Proc.devRef .tc main_arg6) = m ((c : Thread nD τ).loc main_arg6) :=
  (by kept_over hostOps2 at main_arg6 : W7 m ρ c (Proc.devRef .tc main_arg6) = W6 m ρ c (Proc.devRef .tc main_arg6)).trans (W6_main_arg6 m ρ c)

/-! ## The result -/

theorem classify_congr {x x' : (⟨2, ![50000, 256]⟩ : Shape).Idx → EReal} {w w' : (⟨2, ![256, 2]⟩ : Shape).Idx → EReal}
    {b b' : (⟨2, ![1, 2]⟩ : Shape).Idx → EReal} (hx : x = x') (hw : w = w') (hb : b = b') :
    Gcn2.classify x w b = Gcn2.classify x' w' b' := by
  subst hx hw hb; rfl

/-- The kernel program's result buffer ends at the reference's last stage of the launch contents. -/
theorem result (c : Dev nD) : W8 m ρ c (Proc.devRef .tc main_v65)
    = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W8_arr m ρ c 3).trans ((Region2.final2 (V7 m ρ) c).trans
    ((classify_congr (W7_main_v63 m ρ c) (W7_main_arg6 m ρ c) (W7_main_v64 m ρ c)).trans
      (ref70 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).symm))

end Cert.KernelIdeal.Stitch

end
-- ==== Proof.lean ====
/-
  A two-layer graph convolution with a linear classifier and a row-wise log-softmax, on 50000 nodes with 256
  features and 800000 edges plus one self-loop per node:

      out = log_softmax (relu (Â · relu (Â · (x · W1) + b1) · W2 + b2) · Wfc + bfc),

  Â the symmetrically normalised adjacency applied as a gather along the edges, a scale and a scatter-add. The
  two programs compute Â's action, the biases and the edge lists with the same host operations; they differ in
  the three dense products, which one program computes in 50 blocks of 1000 rows (the rectifier and, at the end,
  the bias row and the log-softmax fused into the block's body) and the other in one piece. A dense product's row,
  and the log-softmax of a row, depend on that row of the left factor only, so the blocks are the blocks of the
  whole product: the two results are equal entry by entry on every extended real, and no finiteness is used.

  The claim's five parts: the three programs run to the end without a fault and leave their arguments as they were;
  the idealized kernel program is the printed one's idealization with nothing rewritten; and the two idealized
  programs end at equal results — both at the reference's last stage of the launch contents.
-/
import proofs.«150589_j8770323219097_2_alg».proof.Defs
import proofs.«150589_j8770323219097_2_alg».proof.Proof.Gen.Kernel
import proofs.«150589_j8770323219097_2_alg».proof.Proof.Gen.Kernel.Frame
import proofs.«150589_j8770323219097_2_alg».proof.Proof.Gen.KernelIdeal
import proofs.«150589_j8770323219097_2_alg».proof.Proof.Gen.KernelIdeal.Frame
import proofs.«150589_j8770323219097_2_alg».proof.Proof.Gen.ReferenceIdeal
import proofs.«150589_j8770323219097_2_alg».proof.Proof.Gen.Pre_finite_inputs
import proofs.«150589_j8770323219097_2_alg».proof.Proof.KRun
import proofs.«150589_j8770323219097_2_alg».proof.Proof.Stitch
import proofs.«150589_j8770323219097_2_alg».proof.Proof.RefReadP
import Idealize.ShloMosaic.Adequacy
import Idealize.ShloMosaic.Init

noncomputable section

namespace Cert.Proof

open Idealize.ShloMosaic Idealize.ShloMosaic.TcCoe Idealize.SL.Sem

/-- The printed kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end with the result buffer at the reference's last stage of the launch contents, which
    agree by hypothesis. -/
theorem algebraic : Cert.algebraic_KernelIdeal_ReferenceIdeal := by
  intro m ρ m' ρ' _ hagree
  refine ⟨fun c => Cert.ReferenceIdeal.ReadP.val_main_v70 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Stitch.result m ρ c), (h c).2⟩) (Cert.KernelIdeal.KRun.run m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7⟩ := hagree c
    rw [Cert.ReferenceIdeal.ReadP.val_main_v70_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
